-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S2048x1024 : Shape := ⟨2, ![2048, 1024]⟩
abbrev S2048 : Shape := ⟨1, ![2048]⟩
abbrev S1x2048 : Shape := ⟨2, ![1, 2048]⟩
abbrev S1x1024 : Shape := ⟨2, ![1, 1024]⟩
abbrev S512x1024 : Shape := ⟨2, ![512, 1024]⟩
abbrev S512x3072 : Shape := ⟨2, ![512, 3072]⟩
abbrev S512x2048 : Shape := ⟨2, ![512, 2048]⟩

abbrev nBuf : Space → Nat
  | .hbm => 26
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S3072x1024, .f32⟩
  | .hbm, ⟨15, _⟩ => ⟨S3072x1024, .bf16⟩
  | .hbm, ⟨16, _⟩ => ⟨S2048x1024, .f32⟩
  | .hbm, ⟨17, _⟩ => ⟨S2048x1024, .bf16⟩
  | .hbm, ⟨18, _⟩ => ⟨S1024x1024, .bf16⟩
  | .hbm, ⟨19, _⟩ => ⟨S1024, .f32⟩
  | .hbm, ⟨20, _⟩ => ⟨S1024, .f32⟩
  | .hbm, ⟨21, _⟩ => ⟨S2048, .f32⟩
  | .hbm, ⟨22, _⟩ => ⟨S1x2048, .f32⟩
  | .hbm, ⟨23, _⟩ => ⟨S1024, .f32⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S3072x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1x2048, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024x1024_S1024x1024_S2048x1024_d0 : Shape.Concatenates [S1024x1024, S1024x1024] S2048x1024 0
  concatenates_S1024_S1024_S2048_d0 : Shape.Concatenates [S1024, S1024] S2048 0
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S512x3072_o0_0_S512x1024 : S512x3072.Slices ![0, 0] S512x1024
  slices_S512x2048_o0_0_S512x1024 : S512x2048.Slices ![0, 0] S512x1024
  slices_S1x2048_o0_0_S1x1024 : S1x2048.Slices ![0, 0] S1x1024
  broadcasts_S1x1024_S512x1024 : S1x1024.Broadcasts S512x1024
  slices_S512x3072_o0_1024_S512x1024 : S512x3072.Slices ![0, 1024] S512x1024
  slices_S512x2048_o0_1024_S512x1024 : S512x2048.Slices ![0, 1024] S512x1024
  slices_S1x2048_o0_1024_S1x1024 : S1x2048.Slices ![0, 1024] S1x1024
  slices_S512x3072_o0_2048_S512x1024 : S512x3072.Slices ![0, 2048] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  dot_S512x1024_S3072x1024_S512x3072_1_1_0_0_n_n_wf : DotDims.WF S512x1024 S3072x1024 S512x3072 [1] [1] [0] [0] [] []
  dot_S512x1024_S2048x1024_S512x2048_1_1_0_0_n_n_wf : DotDims.WF S512x1024 S2048x1024 S512x2048 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1024x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S1024x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelFrame.lean ====
/-
  The frame of the kernel program as printed: every weakly fair execution of its @main terminates, nothing faults, and the fourteen
  argument arrays end as they began — for any float interpretation.

  @main is eleven host operations (three concatenations, three format changes, three sums of bias vectors, two reshapes)
  followed by one launch over a grid of 32 points. None of the host operations writes an argument array. At a point the
  body reads seven staged blocks whole (a 512-row block of the input and of the state, the three stacked weight matrices,
  the two bias rows), and overwrites its one output block whole with a value computed from them; so what the output's
  staging buffer holds after the body is that value, the input buffers hold what they held, and nothing else is touched.
  The launch theorem then gives the run: the two staged argument arrays are read and never written, the twelve others are
  staged by no window, and the output array ends at the blocks the points wrote back.
-/
import proofs.«145832_j40621800686224_2_alg».proof.Proof.Gen.Kernel.Launch
import proofs.«145832_j40621800686224_2_alg».proof.Proof.Gen.Kernel.Skeleton
import proofs.«145832_j40621800686224_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What core `c`'s buffers hold when the launch begins: the start contents after the eleven host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 10: the launch finds it as it was at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 11: the launch finds it as it was at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 12: the launch finds it as it was at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 13: the launch finds it as it was at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point — fetched at that point, or fetched at the
    first point and left in place since (the five windows whose block index never moves) — whenever the body leaves
    input blocks as it found them. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends with every staged array at what its proof data says and every other buffer as the launch found
    it: the fourteen argument arrays end as they began. Arguments 0 and 1 are staged inputs; the other twelve are staged
    by no window; no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses: every load and the one store is of a whole buffer -/

abbrev rTile : Rect S512x1024 := Rect.unit (s := S512x1024) ![0, 0] S512x1024.size inb_S512x1024_S512x1024_0_0
abbrev rW3 : Rect S3072x1024 := Rect.unit (s := S3072x1024) ![0, 0] S3072x1024.size inb_S3072x1024_S3072x1024_0_0
abbrev rW2 : Rect S2048x1024 := Rect.unit (s := S2048x1024) ![0, 0] S2048x1024.size inb_S2048x1024_S2048x1024_0_0
abbrev rW1 : Rect S1024x1024 := Rect.unit (s := S1024x1024) ![0, 0] S1024x1024.size inb_S1024x1024_S1024x1024_0_0
abbrev rB2 : Rect S1x2048 := Rect.unit (s := S1x2048) ![0, 0] S1x2048.size inb_S1x2048_S1x2048_0_0
abbrev rB1 : Rect S1x1024 := Rect.unit (s := S1x1024) ![0, 0] S1x1024.size inb_S1x1024_S1x1024_0_0

/-- The new-state tile as the body computes it from the seven blocks it loads: the update gate, the candidate and the
    kept part of the old state, blended. -/
def tileOf (x0 x1 : Vec F S512x1024 .f32) (x2 : Vec F S3072x1024 .bf16) (x3 : Vec F S2048x1024 .bf16) (x4 : Vec F S1024x1024 .bf16)
    (x5 : Vec F S1x2048 .f32) (x6 : Vec F S1x1024 .f32) : Vec F S512x1024 .f32 :=
  k0_pay1 (k0_pay5 (View.ld x0 rTile) (View.ld x1 rTile) (View.ld x2 rW3) (View.ld x3 rW2) (View.ld x5 rB2))
    (k0_pay6 (View.ld x0 rTile) (View.ld x1 rTile) (View.ld x2 rW3) (View.ld x3 rW2) (View.ld x5 rB2) (View.ld x4 rW1) (View.ld x6 rB1))
    (k0_pay7 (View.ld x0 rTile) (View.ld x1 rTile) (View.ld x2 rW3) (View.ld x3 rW2) (View.ld x5 rB2))

/-- What the output's staging buffer holds after the body: its one store, laid over whatever was there. -/
def outTile (x0 x1 : Vec F S512x1024 .f32) (x2 : Vec F S3072x1024 .bf16) (x3 : Vec F S2048x1024 .bf16) (x4 : Vec F S1024x1024 .bf16)
    (x5 : Vec F S1x2048 .f32) (x6 : Vec F S1x1024 .f32) : Vec F S512x1024 .f32 :=
  View.canon [⟨rTile, tileOf x0 x1 x2 x3 x4 x5 x6⟩]

/-- The one store covers the buffer. -/
theorem cover_out (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

/-! ## The body's triple -/

set_option maxHeartbeats 1000000 in
/-- The body on whole staging buffers — the seven inputs' at contents `x0 … x6`, the output's at anything — runs to a
    state with the inputs' buffers as they were and the output's at `outTile` of them. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S3072x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S1x1024 .f32) (harg7 : arg7.IsWhole) (arg8 : Memref sig .tc .vmem S512x1024 .f32) (harg8 : arg8.IsWhole)
    (x0 : Vec F S512x1024 .f32) (x1 : Vec F S512x1024 .f32) (x2 : Vec F S3072x1024 .bf16) (x3 : Vec F S2048x1024 .bf16) (x4 : Vec F S1024x1024 .bf16) (x5 : Vec F S1x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outTile x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The launch's proof data -/

/-- On core `c`: the arrays as the launch finds them; after the body at point `t` each input's buffer at its block and the
    output's at `outTile` of the input blocks; nothing of the body's own to keep between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outTile (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has every
    staged array at what the proof data says (the output array at the blocks written back) and every other unscoped
    buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frame

end
-- ==== Proof.KernelIdealFrame.lean ====
/-
  The frame of the idealized kernel program: every weakly fair execution of its @main terminates, nothing faults, and the fourteen
  argument arrays end as they began — for any float interpretation.

  @main is eleven host operations (three concatenations, three format changes, three sums of bias vectors, two reshapes)
  followed by one launch over a grid of 32 points. None of the host operations writes an argument array. At a point the
  body reads seven staged blocks whole (a 512-row block of the input and of the state, the three stacked weight matrices,
  the two bias rows), and overwrites its one output block whole with a value computed from them; so what the output's
  staging buffer holds after the body is that value, the input buffers hold what they held, and nothing else is touched.
  The launch theorem then gives the run: the two staged argument arrays are read and never written, the twelve others are
  staged by no window, and the output array ends at the blocks the points wrote back.
-/
import proofs.«145832_j40621800686224_2_alg».proof.Proof.Gen.KernelIdeal.Launch
import proofs.«145832_j40621800686224_2_alg».proof.Proof.Gen.KernelIdeal.Skeleton
import proofs.«145832_j40621800686224_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What core `c`'s buffers hold when the launch begins: the start contents after the eleven host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 10: the launch finds it as it was at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 11: the launch finds it as it was at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 12: the launch finds it as it was at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument 13: the launch finds it as it was at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point — fetched at that point, or fetched at the
    first point and left in place since (the five windows whose block index never moves) — whenever the body leaves
    input blocks as it found them. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends with every staged array at what its proof data says and every other buffer as the launch found
    it: the fourteen argument arrays end as they began. Arguments 0 and 1 are staged inputs; the other twelve are staged
    by no window; no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses: every load and the one store is of a whole buffer -/

abbrev rTile : Rect S512x1024 := Rect.unit (s := S512x1024) ![0, 0] S512x1024.size inb_S512x1024_S512x1024_0_0
abbrev rW3 : Rect S3072x1024 := Rect.unit (s := S3072x1024) ![0, 0] S3072x1024.size inb_S3072x1024_S3072x1024_0_0
abbrev rW2 : Rect S2048x1024 := Rect.unit (s := S2048x1024) ![0, 0] S2048x1024.size inb_S2048x1024_S2048x1024_0_0
abbrev rW1 : Rect S1024x1024 := Rect.unit (s := S1024x1024) ![0, 0] S1024x1024.size inb_S1024x1024_S1024x1024_0_0
abbrev rB2 : Rect S1x2048 := Rect.unit (s := S1x2048) ![0, 0] S1x2048.size inb_S1x2048_S1x2048_0_0
abbrev rB1 : Rect S1x1024 := Rect.unit (s := S1x1024) ![0, 0] S1x1024.size inb_S1x1024_S1x1024_0_0

/-- The new-state tile as the body computes it from the seven blocks it loads: the update gate, the candidate and the
    kept part of the old state, blended. -/
def tileOf (x0 x1 : Vec F S512x1024 .f32) (x2 : Vec F S3072x1024 .bf16) (x3 : Vec F S2048x1024 .bf16) (x4 : Vec F S1024x1024 .bf16)
    (x5 : Vec F S1x2048 .f32) (x6 : Vec F S1x1024 .f32) : Vec F S512x1024 .f32 :=
  k0_pay1 (k0_pay5 (View.ld x0 rTile) (View.ld x1 rTile) (View.ld x2 rW3) (View.ld x3 rW2) (View.ld x5 rB2))
    (k0_pay6 (View.ld x0 rTile) (View.ld x1 rTile) (View.ld x2 rW3) (View.ld x3 rW2) (View.ld x5 rB2) (View.ld x4 rW1) (View.ld x6 rB1))
    (k0_pay7 (View.ld x0 rTile) (View.ld x1 rTile) (View.ld x2 rW3) (View.ld x3 rW2) (View.ld x5 rB2))

/-- What the output's staging buffer holds after the body: its one store, laid over whatever was there. -/
def outTile (x0 x1 : Vec F S512x1024 .f32) (x2 : Vec F S3072x1024 .bf16) (x3 : Vec F S2048x1024 .bf16) (x4 : Vec F S1024x1024 .bf16)
    (x5 : Vec F S1x2048 .f32) (x6 : Vec F S1x1024 .f32) : Vec F S512x1024 .f32 :=
  View.canon [⟨rTile, tileOf x0 x1 x2 x3 x4 x5 x6⟩]

/-- The one store covers the buffer. -/
theorem cover_out (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

/-! ## The body's triple -/

set_option maxHeartbeats 1000000 in
/-- The body on whole staging buffers — the seven inputs' at contents `x0 … x6`, the output's at anything — runs to a
    state with the inputs' buffers as they were and the output's at `outTile` of them. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S3072x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1x2048 .f32) (harg6 : arg6.IsWhole) (arg7 : Memref sig .tc .vmem S1x1024 .f32) (harg7 : arg7.IsWhole) (arg8 : Memref sig .tc .vmem S512x1024 .f32) (harg8 : arg8.IsWhole)
    (x0 : Vec F S512x1024 .f32) (x1 : Vec F S512x1024 .f32) (x2 : Vec F S3072x1024 .bf16) (x3 : Vec F S2048x1024 .bf16) (x4 : Vec F S1024x1024 .bf16) (x5 : Vec F S1x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outTile x0 x1 x2 x3 x4 x5 x6)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The launch's proof data -/

/-- On core `c`: the arrays as the launch finds them; after the body at point `t` each input's buffer at its block and the
    output's at `outTile` of the input blocks; nothing of the body's own to keep between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outTile (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has every
    staged array at what the proof data says (the output array at the blocks written back) and every other unscoped
    buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frame

end
-- ==== Proof.Spec.lean ====
/-
  The gated recurrent cell as one function of its fourteen argument arrays, entry by entry, on the extended reals.

  For a batch row `r` and a hidden unit `q`:
    lin a M r q      = ∑ k, a (r, k) · M (q, k)                      (a row of `a` against a row of `M`: a · Mᵀ)
    reset  r q       = σ (((lin x W_r + b_Wr) + lin h U_r) + b_Ur)
    update r q       = σ (((lin x W_u + b_Wu) + lin h U_u) + b_Uu)
    cand   r q       = tanh (((lin x W + b_W) + ∑ k, (h (r, k) · reset r k) · U (q, k)) + b_U)
    out    r q       = (1 − update r q) · h (r, q) + update r q · cand r q
  with σ the logistic function `1 / (1 + e^(−z))` at its conventions on the extended reals, and the `1` of the last line
  kept as the single-precision word for one. Sums of extended reals are grouped as written; the only laws any reading of
  this function uses are the commutativity and associativity of addition.
-/
import Idealize.ShloMosaic.PureOps.Ideal
import Idealize.ShloMosaic.Lib.ValueIdx

noncomputable section

open scoped BigOperators

namespace Cert.Gru

open Idealize.ShloMosaic Idealize.ShloMosaic.ValueIdx

/-- The batch arrays' shape, the weight matrices' and the bias vectors'. -/
abbrev SX : Shape := ⟨2, ![16384, 1024]⟩
abbrev SW : Shape := ⟨2, ![1024, 1024]⟩
abbrev SV : Shape := ⟨1, ![1024]⟩

/-- Row `r` of `a` against row `q` of `M`: entry (r, q) of a · Mᵀ. -/
def lin (a : SX.Idx → EReal) (M : SW.Idx → EReal) (r : Fin 16384) (q : Fin 1024) : EReal :=
  ∑ k : Fin 1024, a (ix2 r k) * M (ix2 q k)

/-- A gate before its logistic: the input's linear map with its bias, then the state's, then the state's bias. -/
def gateLin (x h : SX.Idx → EReal) (Wa Ua : SW.Idx → EReal) (ba bu : SV.Idx → EReal) (r : Fin 16384) (q : Fin 1024) : EReal :=
  ((lin x Wa r q + ba (ix1 q)) + lin h Ua r q) + bu (ix1 q)

/-- A gate: the logistic function of `gateLin`. -/
def gate (x h : SX.Idx → EReal) (Wa Ua : SW.Idx → EReal) (ba bu : SV.Idx → EReal) (r : Fin 16384) (q : Fin 1024) : EReal :=
  Ideal.logistic (gateLin x h Wa Ua ba bu r q)

/-- The candidate state before its tanh: the state enters through its product with the reset gate `g`. -/
def candLin (x h g : SX.Idx → EReal) (W U : SW.Idx → EReal) (bW bU : SV.Idx → EReal) (r : Fin 16384) (q : Fin 1024) : EReal :=
  ((lin x W r q + bW (ix1 q)) + ∑ k : Fin 1024, (h (ix2 r k) * g (ix2 r k)) * U (ix2 q k)) + bU (ix1 q)

/-- The new state at (r, q) from the update gate's value `u` and the candidate's pre-activation `c`. -/
def blend (u hv c : EReal) : EReal :=
  (Ideal.ofBits .f32 0x3F800000#32 - u) * hv + u * Ideal.tanh c

/-- The reset gate as a whole array. -/
def resetArr (x h : SX.Idx → EReal) (Wr Ur : SW.Idx → EReal) (bWr bUr : SV.Idx → EReal) : SX.Idx → EReal :=
  fun i => gate x h Wr Ur bWr bUr (i 0) (i 1)

/-- The cell: the new state as a whole array, a function of the fourteen arguments in the order the programs take them. -/
def G (x h : SX.Idx → EReal) (Wr : SW.Idx → EReal) (bWr : SV.Idx → EReal) (Ur : SW.Idx → EReal) (bUr : SV.Idx → EReal)
    (Wu : SW.Idx → EReal) (bWu : SV.Idx → EReal) (Uu : SW.Idx → EReal) (bUu : SV.Idx → EReal)
    (W : SW.Idx → EReal) (bW : SV.Idx → EReal) (U : SW.Idx → EReal) (bU : SV.Idx → EReal) : SX.Idx → EReal :=
  fun i => blend (gate x h Wu Uu bWu bUu (i 0) (i 1)) (h i)
    (candLin x h (resetArr x h Wr Ur bWr bUr) W U bW bU (i 0) (i 1))

end Cert.Gru

end
-- ==== Proof.Tile.lean ====
/-
  One tile of the cell, from blocks.

  The cell's new state is computed 512 batch rows at a time. A tile sees: a 512-row block `x0` of the input and `x1` of
  the state; the three input-side weight matrices stacked by rows into one [3072, 1024] matrix `x2` (reset, update,
  candidate); the two state-side gate matrices stacked into a [2048, 1024] matrix `x3`; the candidate's state-side matrix
  `x4`; the gates' two bias pairs, each pair already summed, laid end to end as one row `x5` of 2048; and the candidate's
  summed bias pair as a row `x6`. Band `o` (0, 1024 or 2048) of a stacked matrix is the matrix whose rows start there.

    gateT o (p, q) = σ ((x0ₚ · x2[o+q] + x1ₚ · x3[o+q]) + x5[o+q])
    candT   (p, q) = tanh ((x0ₚ · x2[2048+q] + ∑ k, (x1 (p,k) · gateT 0 (p,k)) · x4 (q,k)) + x6[q])
    outT    (p, q) = (1 − gateT 1024 (p,q)) · x1 (p,q) + gateT 1024 (p,q) · candT (p,q)

  When the blocks are what they are said to be (the hypotheses of `outT_eq_G`), the tile at (p, q) is the cell `G` at
  batch row r₀ + p: the tile adds the two matrix products first and the summed biases after, the cell adds input product,
  input bias, state product, state bias in that order — one sum of four terms grouped two ways, equal on the extended
  reals because addition there is commutative and associative (no finiteness is used).
-/
import proofs.«145832_j40621800686224_2_alg».proof.Proof.Spec

noncomputable section

open scoped BigOperators

namespace Cert.Gru

open Idealize.ShloMosaic Idealize.ShloMosaic.ValueIdx

abbrev ST : Shape := ⟨2, ![512, 1024]⟩
abbrev SW3 : Shape := ⟨2, ![3072, 1024]⟩
abbrev SW2 : Shape := ⟨2, ![2048, 1024]⟩
abbrev SB2 : Shape := ⟨2, ![1, 2048]⟩
abbrev SB1 : Shape := ⟨2, ![1, 1024]⟩

/-- Position `o + q` of an axis of extent `N`: entry `q` of the band that starts at `o`. -/
def shift {N : ℕ} (o : ℕ) (h : o + 1024 ≤ N) (q : Fin 1024) : Fin N := ⟨o + q.val, by have := q.isLt; omega⟩

theorem shift_val {N : ℕ} (o : ℕ) (h : o + 1024 ≤ N) (q : Fin 1024) : (shift (N := N) o h q).val = o + q.val := rfl

/-- Batch row `r₀ + p`: row `p` of the tile that starts at `r₀`. -/
def rowAt (r0 : ℕ) (h : r0 + 512 ≤ 16384) (p : Fin 512) : Fin 16384 := ⟨r0 + p.val, by have := p.isLt; omega⟩

/-- Row `p` of a tile against row `j` of a matrix of 1024 columns. -/
def dotRows {N : ℕ} (a : ST.Idx → EReal) (M : (⟨2, ![N, 1024]⟩ : Shape).Idx → EReal) (p : Fin 512) (j : Fin N) : EReal :=
  ∑ k : Fin 1024, a (ix2 p k) * M (ix2 j k)

/-- A gate on a tile: band `o` of the stacked matrices and of the bias row. -/
def gateT (x0 x1 : ST.Idx → EReal) (x2 : SW3.Idx → EReal) (x3 : SW2.Idx → EReal) (x5 : SB2.Idx → EReal)
    (o : ℕ) (h3 : o + 1024 ≤ 3072) (h2 : o + 1024 ≤ 2048) (p : Fin 512) (q : Fin 1024) : EReal :=
  Ideal.logistic ((dotRows x0 x2 p (shift o h3 q) + dotRows x1 x3 p (shift o h2 q)) + x5 (ix2 (0 : Fin 1) (shift o h2 q)))

/-- The candidate's pre-activation on a tile. -/
def candT (x0 x1 : ST.Idx → EReal) (x2 : SW3.Idx → EReal) (x3 : SW2.Idx → EReal) (x4 : SW.Idx → EReal)
    (x5 : SB2.Idx → EReal) (x6 : SB1.Idx → EReal) (p : Fin 512) (q : Fin 1024) : EReal :=
  (dotRows x0 x2 p (shift 2048 (by norm_num) q)
    + ∑ k : Fin 1024, (x1 (ix2 p k) * gateT x0 x1 x2 x3 x5 0 (by norm_num) (by norm_num) p k) * x4 (ix2 q k))
    + x6 (ix2 (0 : Fin 1) q)

/-- The new state on a tile. -/
def outT (x0 x1 : ST.Idx → EReal) (x2 : SW3.Idx → EReal) (x3 : SW2.Idx → EReal) (x4 : SW.Idx → EReal)
    (x5 : SB2.Idx → EReal) (x6 : SB1.Idx → EReal) (p : Fin 512) (q : Fin 1024) : EReal :=
  blend (gateT x0 x1 x2 x3 x5 1024 (by norm_num) (by norm_num) p q) (x1 (ix2 p q)) (candT x0 x1 x2 x3 x4 x5 x6 p q)

/-- Four terms added as (a + b) + (c + d) and as ((a + c) + b) + d. -/
theorem add_regroup (a b c d : EReal) : (a + b) + (c + d) = ((a + c) + b) + d := by
  rw [add_add_add_comm, ← add_assoc]

section
variable (X H : SX.Idx → EReal) (x0 x1 : ST.Idx → EReal) (x2 : SW3.Idx → EReal) (x3 : SW2.Idx → EReal) (x5 : SB2.Idx → EReal)
  (r0 : ℕ) (hr0 : r0 + 512 ≤ 16384)
  (h0 : ∀ (p : Fin 512) (k : Fin 1024), x0 (ix2 p k) = X (ix2 (rowAt r0 hr0 p) k))
  (h1 : ∀ (p : Fin 512) (k : Fin 1024), x1 (ix2 p k) = H (ix2 (rowAt r0 hr0 p) k))
include h0 h1

/-- A tile's gate is the cell's gate at the tile's rows, when band `o` of the stacked matrices holds the gate's two
    matrices and band `o` of the bias row their summed biases. -/
theorem gateT_eq_gate (Wa Ua : SW.Idx → EReal) (ba bu : SV.Idx → EReal) (o : ℕ) (h3 : o + 1024 ≤ 3072) (h2 : o + 1024 ≤ 2048)
    (hW : ∀ (q k : Fin 1024), x2 (ix2 (shift o h3 q) k) = Wa (ix2 q k))
    (hU : ∀ (q k : Fin 1024), x3 (ix2 (shift o h2 q) k) = Ua (ix2 q k))
    (hb : ∀ q : Fin 1024, x5 (ix2 (0 : Fin 1) (shift o h2 q)) = ba (ix1 q) + bu (ix1 q))
    (p : Fin 512) (q : Fin 1024) :
    gateT x0 x1 x2 x3 x5 o h3 h2 p q = gate X H Wa Ua ba bu (rowAt r0 hr0 p) q := by
  unfold gateT gate gateLin lin dotRows
  simp only [h0, h1, hW, hU, hb]
  rw [add_regroup]

end

/-- A tile of blocks that are what they are said to be is the cell at the tile's rows. -/
theorem outT_eq_G (X H : SX.Idx → EReal) (Wr : SW.Idx → EReal) (bWr : SV.Idx → EReal) (Ur : SW.Idx → EReal) (bUr : SV.Idx → EReal)
    (Wu : SW.Idx → EReal) (bWu : SV.Idx → EReal) (Uu : SW.Idx → EReal) (bUu : SV.Idx → EReal)
    (W : SW.Idx → EReal) (bW : SV.Idx → EReal) (U : SW.Idx → EReal) (bU : SV.Idx → EReal)
    (x0 x1 : ST.Idx → EReal) (x2 : SW3.Idx → EReal) (x3 : SW2.Idx → EReal) (x4 : SW.Idx → EReal)
    (x5 : SB2.Idx → EReal) (x6 : SB1.Idx → EReal) (r0 : ℕ) (hr0 : r0 + 512 ≤ 16384)
    (h0 : ∀ (p : Fin 512) (k : Fin 1024), x0 (ix2 p k) = X (ix2 (rowAt r0 hr0 p) k))
    (h1 : ∀ (p : Fin 512) (k : Fin 1024), x1 (ix2 p k) = H (ix2 (rowAt r0 hr0 p) k))
    (h2a : ∀ (q k : Fin 1024), x2 (ix2 (shift 0 (by norm_num) q) k) = Wr (ix2 q k))
    (h2b : ∀ (q k : Fin 1024), x2 (ix2 (shift 1024 (by norm_num) q) k) = Wu (ix2 q k))
    (h2c : ∀ (q k : Fin 1024), x2 (ix2 (shift 2048 (by norm_num) q) k) = W (ix2 q k))
    (h3a : ∀ (q k : Fin 1024), x3 (ix2 (shift 0 (by norm_num) q) k) = Ur (ix2 q k))
    (h3b : ∀ (q k : Fin 1024), x3 (ix2 (shift 1024 (by norm_num) q) k) = Uu (ix2 q k))
    (h4 : ∀ (q k : Fin 1024), x4 (ix2 q k) = U (ix2 q k))
    (h5a : ∀ q : Fin 1024, x5 (ix2 (0 : Fin 1) (shift 0 (by norm_num) q)) = bWr (ix1 q) + bUr (ix1 q))
    (h5b : ∀ q : Fin 1024, x5 (ix2 (0 : Fin 1) (shift 1024 (by norm_num) q)) = bWu (ix1 q) + bUu (ix1 q))
    (h6 : ∀ q : Fin 1024, x6 (ix2 (0 : Fin 1) q) = bW (ix1 q) + bU (ix1 q))
    (p : Fin 512) (q : Fin 1024) :
    outT x0 x1 x2 x3 x4 x5 x6 p q
      = G X H Wr bWr Ur bUr Wu bWu Uu bUu W bW U bU (ix2 (rowAt r0 hr0 p) q) := by
  have hr : ∀ (p : Fin 512) (k : Fin 1024), gateT x0 x1 x2 x3 x5 0 (by norm_num) (by norm_num) p k
      = resetArr X H Wr Ur bWr bUr (ix2 (rowAt r0 hr0 p) k) := fun p k =>
    gateT_eq_gate X H x0 x1 x2 x3 x5 r0 hr0 h0 h1 Wr Ur bWr bUr 0 (by norm_num) (by norm_num) h2a h3a h5a p k
  have hu : gateT x0 x1 x2 x3 x5 1024 (by norm_num) (by norm_num) p q = gate X H Wu Uu bWu bUu (rowAt r0 hr0 p) q :=
    gateT_eq_gate X H x0 x1 x2 x3 x5 r0 hr0 h0 h1 Wu Uu bWu bUu 1024 (by norm_num) (by norm_num) h2b h3b h5b p q
  have hc : candT x0 x1 x2 x3 x4 x5 x6 p q
      = candLin X H (resetArr X H Wr Ur bWr bUr) W U bW bU (rowAt r0 hr0 p) q := by
    unfold candT candLin lin dotRows
    simp only [hr, h0, h1, h2c, h4, h6]
    rw [add_regroup]
  unfold outT G
  rw [hu, hc, h1]

end Cert.Gru

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.TilePayload.lean ====
/-
  The body's arithmetic, read at an entry.

  At the exact values the body's stored tile, as a function of the seven blocks it loads, is the tile `outT` of those
  blocks entry by entry: a change of float format is the identity; a matrix product into the zero accumulator that
  contracts the second axis of both operands is the sum over that axis of the products of entries; a slice of 1024 columns
  from column `o` reads column `o + q`; a row broadcast over the tile's rows reads the row; everything else acts entry by
  entry.
-/
import proofs.«145832_j40621800686224_2_alg».proof.Proof.Gen.KernelIdeal.Skeleton
import proofs.«145832_j40621800686224_2_alg».proof.Proof.Tile
import proofs.«145832_j40621800686224_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Cert.Gru
open Idealize.ShloMosaic Idealize.ShloMosaic.ValueIdx

variable (x0 x1 : FVec Ideal S512x1024 .f32) (x2 : FVec Ideal S3072x1024 .bf16) (x3 : FVec Ideal S2048x1024 .bf16)
  (x4 : FVec Ideal S1024x1024 .bf16) (x5 : FVec Ideal S1x2048 .f32) (x6 : FVec Ideal S1x1024 .f32)

/-- The input-side product: row `p` of the input block against row `j` of the stacked input-side matrices. -/
theorem pay2_apply (p : Fin 512) (j : Fin 3072) : k0_pay2 (F := Ideal) x0 x2 (ix2 p j) = dotRows x0 x2 p j := by
  unfold k0_pay2 dotRows
  rw [shapeCast_self]
  exact Cert.Lib.matmulRows_zero_apply Facts₀.dot_S512x1024_S3072x1024_S512x3072_1_1_0_0_n_n_wf (truncf .bf16 x0 Facts₀.bitsLt_bf16_f32) x2 p j

/-- The state-side gate product. -/
theorem pay3_apply (p : Fin 512) (j : Fin 2048) : k0_pay3 (F := Ideal) x1 x3 (ix2 p j) = dotRows x1 x3 p j := by
  unfold k0_pay3 dotRows
  rw [shapeCast_self]
  exact Cert.Lib.matmulRows_zero_apply Facts₀.dot_S512x1024_S2048x1024_S512x2048_1_1_0_0_n_n_wf (truncf .bf16 x1 Facts₀.bitsLt_bf16_f32) x3 p j

/-- The bias row is loaded as it is. -/
theorem pay4_eq : k0_pay4 (F := Ideal) x5 = x5 := by
  unfold k0_pay4
  exact shapeCast_self x5 _

/-- The logistic and the hyperbolic tangent of a tile act entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- Band `o` of the input-side product, of the state-side product and of the bias row, at (p, q). -/
theorem band2 (o : ℕ) (h3 : o + 1024 ≤ 3072) (h : S512x3072.Slices ![0, o] S512x1024) (p : Fin 512) (q : Fin 1024) :
    extractStridedSlice S512x1024 ![0, o] (k0_pay2 (F := Ideal) x0 x2) h (ix2 p q) = dotRows x0 x2 p (shift o h3 q) :=
  (slice2_axis1_apply o (k0_pay2 (F := Ideal) x0 x2) h p q (shift o h3 q) rfl).trans (pay2_apply x0 x2 p _)

theorem band3 (o : ℕ) (h2 : o + 1024 ≤ 2048) (h : S512x2048.Slices ![0, o] S512x1024) (p : Fin 512) (q : Fin 1024) :
    extractStridedSlice S512x1024 ![0, o] (k0_pay3 (F := Ideal) x1 x3) h (ix2 p q) = dotRows x1 x3 p (shift o h2 q) :=
  (slice2_axis1_apply o (k0_pay3 (F := Ideal) x1 x3) h p q (shift o h2 q) rfl).trans (pay3_apply x1 x3 p _)

theorem bandBias (o : ℕ) (h2 : o + 1024 ≤ 2048) (h : S1x2048.Slices ![0, o] S1x1024) (hb : S1x1024.Broadcasts S512x1024)
    (p : Fin 512) (q : Fin 1024) :
    broadcastTo S512x1024 (extractStridedSlice S1x1024 ![0, o] (k0_pay4 (F := Ideal) x5) h) hb (ix2 p q)
      = x5 (ix2 (0 : Fin 1) (shift o h2 q)) := by
  refine (broadcastTo_1b_ab_apply _ hb p q).trans ?_
  refine (slice2_axis1_apply o (k0_pay4 (F := Ideal) x5) h (0 : Fin 1) q (shift o h2 q) rfl).trans ?_
  rw [pay4_eq]

/-- The update gate on the tile. -/
theorem pay5_apply (p : Fin 512) (q : Fin 1024) :
    k0_pay5 (F := Ideal) x0 x1 x2 x3 x5 (ix2 p q) = gateT x0 x1 x2 x3 x5 1024 (by norm_num) (by norm_num) p q := by
  unfold k0_pay5 gateT
  show Ideal.logistic ((_ + _) + _) = Ideal.logistic ((_ + _) + _)
  rw [band2 x0 x2 1024 (by norm_num), band3 x1 x3 1024 (by norm_num), bandBias x5 1024 (by norm_num)]

/-- The reset gate on the tile, as it stands inside the candidate's product. -/
theorem reset_apply (p : Fin 512) (k : Fin 1024) :
    logistic (addf (addf (extractStridedSlice S512x1024 ![0, 0] (k0_pay2 (F := Ideal) x0 x2) Facts₀.slices_S512x3072_o0_0_S512x1024)
        (extractStridedSlice S512x1024 ![0, 0] (k0_pay3 (F := Ideal) x1 x3) Facts₀.slices_S512x2048_o0_0_S512x1024))
      (broadcastTo S512x1024 (extractStridedSlice S1x1024 ![0, 0] (k0_pay4 (F := Ideal) x5) Facts₀.slices_S1x2048_o0_0_S1x1024)
        Facts₀.broadcasts_S1x1024_S512x1024)) (ix2 p k)
      = gateT x0 x1 x2 x3 x5 0 (by norm_num) (by norm_num) p k := by
  unfold gateT
  show Ideal.logistic ((_ + _) + _) = Ideal.logistic ((_ + _) + _)
  rw [band2 x0 x2 0 (by norm_num), band3 x1 x3 0 (by norm_num), bandBias x5 0 (by norm_num)]

/-- The candidate's state-side product, for any left operand. -/
theorem candDot_apply (l : FVec Ideal S512x1024 .bf16) (p : Fin 512) (q : Fin 1024) :
    matmul dot_S512x1024_S1024x1024_S512x1024_1_1_0_0_n_n none l
        (shapeCast S1024x1024 x4 Facts₀.shapeCasts_S1024x1024_S1024x1024) (constant S512x1024 .f32 0x00000000#32) (ix2 p q)
      = ∑ k : Fin 1024, l (ix2 p k) * x4 (ix2 q k) := by
  rw [shapeCast_self]
  exact Cert.Lib.matmulRows_zero_apply Facts₀.dot_S512x1024_S1024x1024_S512x1024_1_1_0_0_n_n_wf l x4 p q

/-- The candidate's bias row over the tile. -/
theorem candBias_apply (p : Fin 512) (q : Fin 1024) :
    broadcastTo S512x1024 (shapeCast S1x1024 x6 Facts₀.shapeCasts_S1x1024_S1x1024) Facts₀.broadcasts_S1x1024_S512x1024 (ix2 p q)
      = x6 (ix2 (0 : Fin 1) q) := by
  rw [shapeCast_self]
  exact broadcastTo_1b_ab_apply x6 _ p q

/-- The candidate on the tile. -/
theorem pay6_apply (p : Fin 512) (q : Fin 1024) :
    k0_pay6 (F := Ideal) x0 x1 x2 x3 x5 x4 x6 (ix2 p q) = Ideal.tanh (candT x0 x1 x2 x3 x4 x5 x6 p q) := by
  unfold k0_pay6 candT
  show Ideal.tanh ((_ + matmul (F := Ideal) _ none _ _ _ (ix2 p q)) + _) = Ideal.tanh ((_ + _) + _)
  rw [band2 x0 x2 2048 (by norm_num), candDot_apply x4, candBias_apply x6]
  refine congrArg Ideal.tanh (congrArg (· + _) (congrArg (_ + ·) (Finset.sum_congr rfl fun k _ => ?_)))
  exact congrArg (fun z => (x1 (ix2 p k) * z) * x4 (ix2 q k)) (reset_apply x0 x1 x2 x3 x5 p k)

/-- The kept part of the old state on the tile. -/
theorem pay7_apply (p : Fin 512) (q : Fin 1024) :
    k0_pay7 (F := Ideal) x0 x1 x2 x3 x5 (ix2 p q)
      = (Ideal.ofBits .f32 0x3F800000#32 - gateT x0 x1 x2 x3 x5 1024 (by norm_num) (by norm_num) p q) * x1 (ix2 p q) := by
  unfold k0_pay7
  show (_ - k0_pay5 (F := Ideal) x0 x1 x2 x3 x5 (ix2 p q)) * _ = _
  rw [pay5_apply]
  rfl

/-- THE TILE: what the body stores, at (p, q), is the tile of the blocks it loaded. -/
theorem tile_apply (p : Fin 512) (q : Fin 1024) :
    k0_pay1 (F := Ideal) (k0_pay5 x0 x1 x2 x3 x5) (k0_pay6 x0 x1 x2 x3 x5 x4 x6) (k0_pay7 x0 x1 x2 x3 x5) (ix2 p q)
      = outT x0 x1 x2 x3 x4 x5 x6 p q := by
  unfold outT blend
  show k0_pay7 (F := Ideal) x0 x1 x2 x3 x5 (ix2 p q) + k0_pay5 (F := Ideal) x0 x1 x2 x3 x5 (ix2 p q) * k0_pay6 (F := Ideal) x0 x1 x2 x3 x5 x4 x6 (ix2 p q) = _
  rw [pay5_apply, pay6_apply, pay7_apply]

end Cert.KernelIdeal.TileValue

end
-- ==== Proof.LibStackedRows.lean ====
/-
  Three matrices stacked by rows, read at an entry.

  The concatenation along the rows of three [n, m] matrices is the [N, m] matrix whose entry (n·j + r, d), for a band
  j < 3 and a row r < n, is entry (r, d) of the j-th matrix.
-/
import Idealize.ShloMosaic.Lib.Pipeline.Value
import Idealize.ShloMosaic.Lib.ValueIdx

noncomputable section

namespace Cert.Lib

open Idealize.ShloMosaic Idealize.ShloMosaic.ValueIdx

/-- Three [n, m] matrices stacked by rows, read at row `n·j + r` of band `j`: entry (r, d) of the `j`-th. -/
theorem concat3_rows_apply {α : Type} {n m N : ℕ} (A0 A1 A2 : (⟨2, ![n, m]⟩ : Shape).Idx → α)
    (h : Shape.Concatenates [(⟨2, ![n, m]⟩ : Shape), ⟨2, ![n, m]⟩, ⟨2, ![n, m]⟩] ⟨2, ![N, m]⟩ 0)
    (j : ℕ) (hj : j < 3) (r : Fin n) (d : Fin m) (R : Fin N) (hR : n * j + r.val = R.val) :
    concatenate ⟨2, ![N, m]⟩ 0 [⟨⟨2, ![n, m]⟩, A0⟩, ⟨⟨2, ![n, m]⟩, A1⟩, ⟨⟨2, ![n, m]⟩, A2⟩] h (ix2 R d)
      = ([A0, A1, A2][j]'(by simpa using hj)) (ix2 r d) := by
  interval_cases j
  · exact concatenate_apply_piece (t := ⟨2, ![N, m]⟩) 0 [⟨⟨2, ![n, m]⟩, A0⟩, ⟨⟨2, ![n, m]⟩, A1⟩, ⟨⟨2, ![n, m]⟩, A2⟩] h (ix2 R d) 0 (by simp) ⟨2, ![n, m]⟩ A0 rfl rfl 0 rfl (ix2 r d)
      (fun b hb => match b, hb with | ⟨0, _⟩, hb => absurd rfl hb | ⟨1, _⟩, _ => rfl) (by show 0 + r.val = R.val; omega)
  · exact concatenate_apply_piece (t := ⟨2, ![N, m]⟩) 0 [⟨⟨2, ![n, m]⟩, A0⟩, ⟨⟨2, ![n, m]⟩, A1⟩, ⟨⟨2, ![n, m]⟩, A2⟩] h (ix2 R d) 1 (by simp) ⟨2, ![n, m]⟩ A1 rfl rfl n rfl (ix2 r d)
      (fun b hb => match b, hb with | ⟨0, _⟩, hb => absurd rfl hb | ⟨1, _⟩, _ => rfl) (by show n + r.val = R.val; omega)
  · exact concatenate_apply_piece (t := ⟨2, ![N, m]⟩) 0 [⟨⟨2, ![n, m]⟩, A0⟩, ⟨⟨2, ![n, m]⟩, A1⟩, ⟨⟨2, ![n, m]⟩, A2⟩] h (ix2 R d) 2 (by simp) ⟨2, ![n, m]⟩ A2 rfl rfl (n + n) rfl (ix2 r d)
      (fun b hb => match b, hb with | ⟨0, _⟩, hb => absurd rfl hb | ⟨1, _⟩, _ => rfl) (by show n + n + r.val = R.val; omega)

end Cert.Lib

end
-- ==== Proof.LibRefReads.lean ====
import Idealize.ShloMosaic.PureOps.Ideal
import Idealize.ShloMosaic.PureOps.Ideal.Laws
import Idealize.ShloMosaic.Lib.ValueIdx
import Idealize.ShloMosaic.Lib.Pipeline.Value

/-!
# Small general facts for reading a host program index by index

A sum over a rank-1 index set is the sum over its coordinate. The words a `jnp.diagonal` builds its start indices
from: a number below `2³¹`, as a 32-bit word, is not below zero in the signed order and reads back as itself. The
float made from the bit "two numbers are equal" is `1` or `0`. A two-column `gather` out of a matrix reads the
matrix at the row and the column its start indices name. A concatenation of two pieces — matrices stacked by rows,
vectors laid end to end, one-column matrices set side by side — read at an index is the piece the index falls in.
-/

noncomputable section

open scoped BigOperators

namespace Cert.RefLib

open Idealize.ShloMosaic Idealize.ShloMosaic.ValueIdx

/-! ## Rank-1 index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A number below `2³¹`, as a 32-bit word, is not below zero in the signed order. -/
theorem toInt_ofNat32 (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

theorem cmpi_slt_ofNat_zero (n : Nat) (hn : n < 2 ^ 31) : IntOp.cmpi .slt (BitVec.ofNat 32 n) 0#32 = 0#1 := by
  have h : (BitVec.ofNat 32 n).slt 0#32 = false := by
    rw [BitVec.slt, toInt_ofNat32 n hn]
    simp only [BitVec.toInt_zero, decide_eq_false_iff_not, not_lt]
    omega
  show BitVec.ofBool ((BitVec.ofNat 32 n).slt 0#32) = 0#1
  rw [h]; rfl

/-- … and read back as a signed integer it is the number. -/
theorem toInt_toNat_ofNat (n : Nat) (hn : n < 2 ^ 31) : (BitVec.ofNat 32 n).toInt.toNat = n := by
  rw [toInt_ofNat32 n hn]; rfl

/-- The sum of two 32-bit words that are numbers with a sum below `2³²` is the word of the sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The float made from the bit "the words of `a` and `b` are equal" is `1` when `a = b` and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    simp [h, hne]

section Pick
variable {α : Type}

/-- The dimension numbers of a `gather` that picks single entries out of a matrix `[N, M]`: start indices `[R, 2]`
    (row and column per result entry), both operand axes collapsed, result `[R]`. -/
abbrev pickDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem pick_coord0 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 0 + (pickDims N M R wf).batchCoord (ix1 r) 0
      + (pickDims N M R wf).offCoord (ix1 r) 0 = min (idx (ix2 r 0)).toInt.toNat (N - 1) := by
  have hm : (0 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (0 : Fin 2) (pickDims N M R wf).startIndexMap,
      List.idxOf_lt_length_iff.2 hm⟩ = ix2 r 0 := by
    funext b; refine Fin.ext ?_
    match b with
    | ⟨0, _⟩ => rfl
    | ⟨1, _⟩ => rfl
  rw [hsi]
  rfl

theorem pick_coord1 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 1 + (pickDims N M R wf).batchCoord (ix1 r) 1
      + (pickDims N M R wf).offCoord (ix1 r) 1 = min (idx (ix2 r 1)).toInt.toNat (M - 1) := by
  have hm : (1 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (1 : Fin 2) (pickDims N M R wf).startIndexMap,
      List.idxOf_lt_length_iff.2 hm⟩ = ix2 r 1 := by
    funext b; refine Fin.ext ?_
    match b with
    | ⟨0, _⟩ => rfl
    | ⟨1, _⟩ => rfl
  rw [hsi]
  rfl

/-- Such a gather at result entry `r` reads the matrix at the row `idx[r, 0]` and the column `idx[r, 1]`, each read
    as a signed integer and clamped into the matrix. -/
theorem gather_pick_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pickDims N M R wf) x idx (ix1 r)
      = x (ix2 (⟨min (idx (ix2 r 0)).toInt.toNat (N - 1), by omega⟩ : Fin N)
               (⟨min (idx (ix2 r 1)).toInt.toNat (M - 1), by omega⟩ : Fin M)) := by
  unfold Host.gather
  congr 1
  funext a
  refine Fin.ext ?_
  match a with
  | ⟨0, _⟩ => exact pick_coord0 wf idx r
  | ⟨1, _⟩ => exact pick_coord1 wf idx r

end Pick

section Concat
variable {α : Type}

/-- Two matrices stacked by rows, read at a row of the first: that row of the first. -/
theorem concat_rows_left {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : R.val < n1) :
    concatenate ⟨2, ![n, m]⟩ 0 [⟨⟨2, ![n1, m]⟩, a⟩, ⟨⟨2, ![n2, m]⟩, b⟩] h (ix2 R d) = a (ix2 ⟨R.val, hR⟩ d) :=
  concatenate_pair_apply_left 0 a b h (ix2 R d) rfl (ix2 ⟨R.val, hR⟩ d)
    (fun c => match c with | ⟨0, _⟩ => rfl | ⟨1, _⟩ => rfl)

/-- … and at a row past the first: the second's row, the first's row count less. -/
theorem concat_rows_right {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : n1 ≤ R.val) (hlt : R.val - n1 < n2) :
    concatenate ⟨2, ![n, m]⟩ 0 [⟨⟨2, ![n1, m]⟩, a⟩, ⟨⟨2, ![n2, m]⟩, b⟩] h (ix2 R d) = b (ix2 ⟨R.val - n1, hlt⟩ d) :=
  concatenate_pair_apply_right 0 a b h (ix2 R d) rfl rfl (ix2 ⟨R.val - n1, hlt⟩ d)
    (fun c hc => match c, hc with
      | ⟨0, _⟩, hc => absurd rfl hc
      | ⟨1, _⟩, _ => rfl)
    (by show (R.val - n1) + n1 = R.val; omega)

/-- Two vectors laid end to end, read in the first … -/
theorem concat_vec_left {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n) (hR : R.val < n1) :
    concatenate ⟨1, ![n]⟩ 0 [⟨⟨1, ![n1]⟩, a⟩, ⟨⟨1, ![n2]⟩, b⟩] h (ix1 R) = a (ix1 ⟨R.val, hR⟩) :=
  concatenate_pair_apply_left 0 a b h (ix1 R) rfl (ix1 ⟨R.val, hR⟩)
    (fun c => match c with | ⟨0, _⟩ => rfl)

/-- … and past it. -/
theorem concat_vec_right {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n)
    (hR : n1 ≤ R.val) (hlt : R.val - n1 < n2) :
    concatenate ⟨1, ![n]⟩ 0 [⟨⟨1, ![n1]⟩, a⟩, ⟨⟨1, ![n2]⟩, b⟩] h (ix1 R) = b (ix1 ⟨R.val - n1, hlt⟩) :=
  concatenate_pair_apply_right 0 a b h (ix1 R) rfl rfl (ix1 ⟨R.val - n1, hlt⟩)
    (fun c hc => match c, hc with
      | ⟨0, _⟩, hc => absurd rfl hc)
    (by show (R.val - n1) + n1 = R.val; omega)

/-- Two one-column matrices set side by side: column 0 is the first … -/
theorem concat_cols_left {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 0) = a (ix2 r 0) :=
  concatenate_pair_apply_left 1 a b h (ix2 r 0) rfl (ix2 r 0)
    (fun c => match c with | ⟨0, _⟩ => rfl | ⟨1, _⟩ => rfl)

/-- … and column 1 the second. -/
theorem concat_cols_right {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 1) = b (ix2 r 0) :=
  concatenate_pair_apply_right 1 a b h (ix2 r 1) rfl rfl (ix2 r 0)
    (fun c hc => match c, hc with
      | ⟨0, _⟩, _ => rfl
      | ⟨1, _⟩, hc => absurd rfl hc)
    (by rfl)

end Concat

end Cert.RefLib

end
-- ==== Proof.HostPrefix.lean ====
/-
  What the launch finds in the arrays the host operations wrote, entry by entry, at the exact values.

  Before the launch @main stacks the three input-side weight matrices by rows (reset, update, candidate) and the two
  state-side gate matrices, changes their float format and the candidate's state-side matrix's (the identity on exact
  values), adds each of the three pairs of bias vectors, lays the two gates' summed biases end to end and recasts that
  vector, and the candidate's summed bias, as one-row matrices. So band `o` of the stacked input-side matrix is the
  weight matrix that sits there, and likewise for the stacked state-side matrix and the bias row.
-/
import proofs.«145832_j40621800686224_2_alg».proof.Proof.KernelIdealFrame
import proofs.«145832_j40621800686224_2_alg».proof.Proof.Tile
import proofs.«145832_j40621800686224_2_alg».proof.Proof.LibStackedRows
import proofs.«145832_j40621800686224_2_alg».proof.Proof.LibRefReads
import Idealize.ShloMosaic.Lib.ValueLayout
import Idealize.ShloMosaic.Lib.StableHlo.Run

set_option maxRecDepth 16384

noncomputable section

namespace Cert.KernelIdeal.HostPrefix

open Cert.KernelIdeal Cert.KernelIdeal.Gen Cert.KernelIdeal.Frame Cert.Gru
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-- The stacked input-side matrix as the launch finds it. -/
theorem V_v1 : (V m c main_v1 : S3072x1024.Idx → EReal)
    = truncf (F := Ideal) .bf16 (concatenate S3072x1024 0 [⟨S1024x1024, m ((c : Thread nD τ).loc main_arg2)⟩, ⟨S1024x1024, m ((c : Thread nD τ).loc main_arg6)⟩,
        ⟨S1024x1024, m ((c : Thread nD τ).loc main_arg10)⟩] Facts₀.concatenates_S1024x1024_S1024x1024_S1024x1024_S3072x1024_d0) Facts₀.bitsLt_bf16_f32 := by
  dsimp only [V, hostOps0]; after_results; try rfl

/-- The stacked state-side gate matrix. -/
theorem V_v3 : (V m c main_v3 : S2048x1024.Idx → EReal)
    = truncf (F := Ideal) .bf16 (concatenate S2048x1024 0 [⟨S1024x1024, m ((c : Thread nD τ).loc main_arg4)⟩, ⟨S1024x1024, m ((c : Thread nD τ).loc main_arg8)⟩]
        Facts₀.concatenates_S1024x1024_S1024x1024_S2048x1024_d0) Facts₀.bitsLt_bf16_f32 := by
  dsimp only [V, hostOps0]; after_results; try rfl

/-- The candidate's state-side matrix. -/
theorem V_v4 : (V m c main_v4 : S1024x1024.Idx → EReal) = truncf (F := Ideal) .bf16 (m ((c : Thread nD τ).loc main_arg12)) Facts₀.bitsLt_bf16_f32 := by
  dsimp only [V, hostOps0]; after_results; try rfl

/-- The gates' bias row. -/
theorem V_v8 : (V m c main_v8 : S1x2048.Idx → EReal)
    = shapeCast S1x2048 (concatenate S2048 0 [⟨S1024, addf (F := Ideal) (s := S1024) (φ := .f32) (m ((c : Thread nD τ).loc main_arg3)) (m ((c : Thread nD τ).loc main_arg5))⟩,
        ⟨S1024, addf (F := Ideal) (s := S1024) (φ := .f32) (m ((c : Thread nD τ).loc main_arg7)) (m ((c : Thread nD τ).loc main_arg9))⟩] Facts₀.concatenates_S1024_S1024_S2048_d0)
        Facts₀.shapeCasts_S2048_S1x2048 := by
  dsimp only [V, hostOps0]; after_results; try rfl

/-- The candidate's bias row. -/
theorem V_v10 : (V m c main_v10 : S1x1024.Idx → EReal)
    = shapeCast S1x1024 (addf (F := Ideal) (s := S1024) (φ := .f32) (m ((c : Thread nD τ).loc main_arg11)) (m ((c : Thread nD τ).loc main_arg13))) Facts₀.shapeCasts_S1024_S1x1024 := by
  dsimp only [V, hostOps0]; after_results; try rfl

/-- Two bias vectors added, at an entry. -/
abbrev pairSum (a b : S1024.Idx → EReal) (q : Fin 1024) : EReal := a (ix1 q) + b (ix1 q)

/-! ## Band by band -/

/-- Band 0 of the stacked input-side matrix is the reset gate's, band 1024 the update gate's, band 2048 the candidate's. -/
theorem wcat_reset (q k : Fin 1024) :
    V m c main_v1 (ix2 (shift 0 (by norm_num) q) k) = m ((c : Thread nD τ).loc main_arg2) (ix2 q k) := by
  rw [V_v1]
  show concatenate S3072x1024 0 [⟨S1024x1024, m ((c : Thread nD τ).loc main_arg2)⟩, ⟨S1024x1024, m ((c : Thread nD τ).loc main_arg6)⟩, ⟨S1024x1024, m ((c : Thread nD τ).loc main_arg10)⟩] Facts₀.concatenates_S1024x1024_S1024x1024_S1024x1024_S3072x1024_d0 (ix2 (shift 0 (by norm_num) q) k) = _
  exact Cert.Lib.concat3_rows_apply (m ((c : Thread nD τ).loc main_arg2)) (m ((c : Thread nD τ).loc main_arg6)) (m ((c : Thread nD τ).loc main_arg10)) Facts₀.concatenates_S1024x1024_S1024x1024_S1024x1024_S3072x1024_d0 0 (by norm_num) q k _ (by show 1024 * 0 + q.val = 0 + q.val; omega)

theorem wcat_update (q k : Fin 1024) :
    V m c main_v1 (ix2 (shift 1024 (by norm_num) q) k) = m ((c : Thread nD τ).loc main_arg6) (ix2 q k) := by
  rw [V_v1]
  show concatenate S3072x1024 0 [⟨S1024x1024, m ((c : Thread nD τ).loc main_arg2)⟩, ⟨S1024x1024, m ((c : Thread nD τ).loc main_arg6)⟩, ⟨S1024x1024, m ((c : Thread nD τ).loc main_arg10)⟩] Facts₀.concatenates_S1024x1024_S1024x1024_S1024x1024_S3072x1024_d0 (ix2 (shift 1024 (by norm_num) q) k) = _
  exact Cert.Lib.concat3_rows_apply (m ((c : Thread nD τ).loc main_arg2)) (m ((c : Thread nD τ).loc main_arg6)) (m ((c : Thread nD τ).loc main_arg10)) Facts₀.concatenates_S1024x1024_S1024x1024_S1024x1024_S3072x1024_d0 1 (by norm_num) q k _ (by show 1024 * 1 + q.val = 1024 + q.val; omega)

theorem wcat_cand (q k : Fin 1024) :
    V m c main_v1 (ix2 (shift 2048 (by norm_num) q) k) = m ((c : Thread nD τ).loc main_arg10) (ix2 q k) := by
  rw [V_v1]
  show concatenate S3072x1024 0 [⟨S1024x1024, m ((c : Thread nD τ).loc main_arg2)⟩, ⟨S1024x1024, m ((c : Thread nD τ).loc main_arg6)⟩, ⟨S1024x1024, m ((c : Thread nD τ).loc main_arg10)⟩] Facts₀.concatenates_S1024x1024_S1024x1024_S1024x1024_S3072x1024_d0 (ix2 (shift 2048 (by norm_num) q) k) = _
  exact Cert.Lib.concat3_rows_apply (m ((c : Thread nD τ).loc main_arg2)) (m ((c : Thread nD τ).loc main_arg6)) (m ((c : Thread nD τ).loc main_arg10)) Facts₀.concatenates_S1024x1024_S1024x1024_S1024x1024_S3072x1024_d0 2 (by norm_num) q k _ (by show 1024 * 2 + q.val = 2048 + q.val; omega)

/-- Band 0 of the stacked state-side matrix is the reset gate's, band 1024 the update gate's. -/
theorem ucat_reset (q k : Fin 1024) :
    V m c main_v3 (ix2 (shift 0 (by norm_num) q) k) = m ((c : Thread nD τ).loc main_arg4) (ix2 q k) := by
  rw [V_v3]
  show concatenate S2048x1024 0 [⟨S1024x1024, m ((c : Thread nD τ).loc main_arg4)⟩, ⟨S1024x1024, m ((c : Thread nD τ).loc main_arg8)⟩] Facts₀.concatenates_S1024x1024_S1024x1024_S2048x1024_d0 (ix2 (shift 0 (by norm_num) q) k) = _
  refine (Cert.RefLib.concat_rows_left Facts₀.concatenates_S1024x1024_S1024x1024_S2048x1024_d0 (m ((c : Thread nD τ).loc main_arg4)) (m ((c : Thread nD τ).loc main_arg8)) (shift 0 (by norm_num) q) k (by show 0 + q.val < 1024; have := q.isLt; omega)).trans ?_
  exact congrArg (fun r => m ((c : Thread nD τ).loc main_arg4) (ix2 r k)) (Fin.ext (by show 0 + q.val = q.val; omega))

theorem ucat_update (q k : Fin 1024) :
    V m c main_v3 (ix2 (shift 1024 (by norm_num) q) k) = m ((c : Thread nD τ).loc main_arg8) (ix2 q k) := by
  rw [V_v3]
  show concatenate S2048x1024 0 [⟨S1024x1024, m ((c : Thread nD τ).loc main_arg4)⟩, ⟨S1024x1024, m ((c : Thread nD τ).loc main_arg8)⟩] Facts₀.concatenates_S1024x1024_S1024x1024_S2048x1024_d0 (ix2 (shift 1024 (by norm_num) q) k) = _
  refine (Cert.RefLib.concat_rows_right Facts₀.concatenates_S1024x1024_S1024x1024_S2048x1024_d0 (m ((c : Thread nD τ).loc main_arg4)) (m ((c : Thread nD τ).loc main_arg8)) (shift 1024 (by norm_num) q) k (by show 1024 ≤ 1024 + q.val; omega)
    (by show 1024 + q.val - 1024 < 1024; have := q.isLt; omega)).trans ?_
  exact congrArg (fun r => m ((c : Thread nD τ).loc main_arg8) (ix2 r k)) (Fin.ext (by show 1024 + q.val - 1024 = q.val; omega))

/-- The candidate's state-side matrix is the argument's. -/
theorem u_entry (q k : Fin 1024) : V m c main_v4 (ix2 q k) = m ((c : Thread nD τ).loc main_arg12) (ix2 q k) := by
  rw [V_v4]; rfl

/-- The two gates' summed biases, laid end to end. -/
abbrev gateBias : S2048.Idx → EReal :=
  concatenate S2048 0 [⟨S1024, addf (F := Ideal) (s := S1024) (φ := .f32) (m ((c : Thread nD τ).loc main_arg3)) (m ((c : Thread nD τ).loc main_arg5))⟩,
    ⟨S1024, addf (F := Ideal) (s := S1024) (φ := .f32) (m ((c : Thread nD τ).loc main_arg7)) (m ((c : Thread nD τ).loc main_arg9))⟩] Facts₀.concatenates_S1024_S1024_S2048_d0

/-- Band 0 of the gates' bias row is the reset gate's two biases added, band 1024 the update gate's. -/
theorem bias_reset (q : Fin 1024) :
    V m c main_v8 (ix2 (0 : Fin 1) (shift 0 (by norm_num) q)) = pairSum (m ((c : Thread nD τ).loc main_arg3)) (m ((c : Thread nD τ).loc main_arg5)) q := by
  rw [V_v8]
  refine (shapeCast_a_1a_apply (gateBias m c) Facts₀.shapeCasts_S2048_S1x2048 (0 : Fin 1) (shift 0 (by norm_num) q)).trans ?_
  refine (Cert.RefLib.concat_vec_left Facts₀.concatenates_S1024_S1024_S2048_d0 (addf (F := Ideal) (s := S1024) (φ := .f32) (m ((c : Thread nD τ).loc main_arg3)) (m ((c : Thread nD τ).loc main_arg5)))
    (addf (F := Ideal) (s := S1024) (φ := .f32) (m ((c : Thread nD τ).loc main_arg7)) (m ((c : Thread nD τ).loc main_arg9))) (shift 0 (by norm_num) q) (by show 0 + q.val < 1024; have := q.isLt; omega)).trans ?_
  have e : (⟨(shift (N := 2048) 0 (by norm_num) q).val, by show 0 + q.val < 1024; have := q.isLt; omega⟩ : Fin 1024) = q :=
    Fin.ext (by show 0 + q.val = q.val; omega)
  rw [e]; rfl

theorem bias_update (q : Fin 1024) :
    V m c main_v8 (ix2 (0 : Fin 1) (shift 1024 (by norm_num) q)) = pairSum (m ((c : Thread nD τ).loc main_arg7)) (m ((c : Thread nD τ).loc main_arg9)) q := by
  rw [V_v8]
  refine (shapeCast_a_1a_apply (gateBias m c) Facts₀.shapeCasts_S2048_S1x2048 (0 : Fin 1) (shift 1024 (by norm_num) q)).trans ?_
  refine (Cert.RefLib.concat_vec_right Facts₀.concatenates_S1024_S1024_S2048_d0 (addf (F := Ideal) (s := S1024) (φ := .f32) (m ((c : Thread nD τ).loc main_arg3)) (m ((c : Thread nD τ).loc main_arg5)))
    (addf (F := Ideal) (s := S1024) (φ := .f32) (m ((c : Thread nD τ).loc main_arg7)) (m ((c : Thread nD τ).loc main_arg9))) (shift 1024 (by norm_num) q) (by show 1024 ≤ 1024 + q.val; omega)
    (by show 1024 + q.val - 1024 < 1024; have := q.isLt; omega)).trans ?_
  have e : (⟨(shift (N := 2048) 1024 (by norm_num) q).val - 1024, by show 1024 + q.val - 1024 < 1024; have := q.isLt; omega⟩ : Fin 1024) = q :=
    Fin.ext (by show 1024 + q.val - 1024 = q.val; omega)
  rw [e]; rfl

/-- The candidate's bias row is its two biases added. -/
theorem bias_cand (q : Fin 1024) :
    V m c main_v10 (ix2 (0 : Fin 1) q) = pairSum (m ((c : Thread nD τ).loc main_arg11)) (m ((c : Thread nD τ).loc main_arg13)) q := by
  rw [V_v10]
  exact shapeCast_a_1a_apply (addf (F := Ideal) (s := S1024) (φ := .f32) (m ((c : Thread nD τ).loc main_arg11)) (m ((c : Thread nD τ).loc main_arg13))) Facts₀.shapeCasts_S1024_S1x1024 (0 : Fin 1) q

end Cert.KernelIdeal.HostPrefix

end
-- ==== Proof.KernelValue.lean ====
/-
  What the idealized kernel program computes: its result array, after any run, is the cell of its argument arrays.

  Grid point `t` (of 32) stages rows 512·t … 512·t + 511 of the input and of the state, the five host-written arrays
  whole, and writes its tile back to the same rows of the result. The tile it writes is the tile of its blocks
  (the body's arithmetic read at an entry), those blocks are what the tile lemma asks of them (the input and state blocks
  by the windows' index maps; the stacked matrices and bias rows band by band), so the tile is the cell at rows
  512·t + p. The 32 tiles cover the result array: row r lies in the tile of point r / 512.
-/
import proofs.«145832_j40621800686224_2_alg».proof.Proof.KernelIdealFrame
import proofs.«145832_j40621800686224_2_alg».proof.Proof.TilePayload
import proofs.«145832_j40621800686224_2_alg».proof.Proof.HostPrefix
import Idealize.ShloMosaic.Lib.Pipeline.Value

set_option maxRecDepth 16384

noncomputable section

namespace Cert.KernelIdeal.KernelValue

open Cert.KernelIdeal Cert.KernelIdeal.Gen Cert.KernelIdeal.Frame Cert.KernelIdeal.TileValue Cert.KernelIdeal.HostPrefix Cert.Gru
open Idealize.ShloMosaic Idealize.ShloMosaic.TcCoe Idealize.ShloMosaic.ValueIdx Idealize.SL.Sem
open Idealize.ShloMosaic.Pipeline (Dat)

/-- The body's stored tile at any entry, for blocks that are what the tile lemma asks: the cell at the tile's rows. -/
theorem tile_point (X H : SX.Idx → EReal) (Wr : SW.Idx → EReal) (bWr : SV.Idx → EReal) (Ur : SW.Idx → EReal) (bUr : SV.Idx → EReal)
    (Wu : SW.Idx → EReal) (bWu : SV.Idx → EReal) (Uu : SW.Idx → EReal) (bUu : SV.Idx → EReal)
    (W : SW.Idx → EReal) (bW : SV.Idx → EReal) (U : SW.Idx → EReal) (bU : SV.Idx → EReal)
    (x0 x1 : FVec Ideal S512x1024 .f32) (x2 : FVec Ideal S3072x1024 .bf16) (x3 : FVec Ideal S2048x1024 .bf16)
    (x4 : FVec Ideal S1024x1024 .bf16) (x5 : FVec Ideal S1x2048 .f32) (x6 : FVec Ideal S1x1024 .f32) (r0 : ℕ) (hr0 : r0 + 512 ≤ 16384)
    (h0 : ∀ (p : Fin 512) (k : Fin 1024), x0 (ix2 p k) = X (ix2 (rowAt r0 hr0 p) k))
    (h1 : ∀ (p : Fin 512) (k : Fin 1024), x1 (ix2 p k) = H (ix2 (rowAt r0 hr0 p) k))
    (h2a : ∀ (q k : Fin 1024), x2 (ix2 (shift 0 (by norm_num) q) k) = Wr (ix2 q k))
    (h2b : ∀ (q k : Fin 1024), x2 (ix2 (shift 1024 (by norm_num) q) k) = Wu (ix2 q k))
    (h2c : ∀ (q k : Fin 1024), x2 (ix2 (shift 2048 (by norm_num) q) k) = W (ix2 q k))
    (h3a : ∀ (q k : Fin 1024), x3 (ix2 (shift 0 (by norm_num) q) k) = Ur (ix2 q k))
    (h3b : ∀ (q k : Fin 1024), x3 (ix2 (shift 1024 (by norm_num) q) k) = Uu (ix2 q k))
    (h4 : ∀ (q k : Fin 1024), x4 (ix2 q k) = U (ix2 q k))
    (h5a : ∀ q : Fin 1024, x5 (ix2 (0 : Fin 1) (shift 0 (by norm_num) q)) = bWr (ix1 q) + bUr (ix1 q))
    (h5b : ∀ q : Fin 1024, x5 (ix2 (0 : Fin 1) (shift 1024 (by norm_num) q)) = bWu (ix1 q) + bUu (ix1 q))
    (h6 : ∀ q : Fin 1024, x6 (ix2 (0 : Fin 1) q) = bW (ix1 q) + bU (ix1 q))
    (j : S512x1024.Idx) :
    k0_pay1 (F := Ideal) (k0_pay5 x0 x1 x2 x3 x5) (k0_pay6 x0 x1 x2 x3 x5 x4 x6) (k0_pay7 x0 x1 x2 x3 x5) j
      = G X H Wr bWr Ur bUr Wu bWu Uu bUu W bW U bU (ix2 (rowAt r0 hr0 (j 0)) (j 1)) := by
  obtain ⟨p, q, rfl⟩ : ∃ (p : Fin 512) (q : Fin 1024), j = ix2 p q := ⟨j 0, j 1, eq_ix2 j⟩
  exact (tile_apply x0 x1 x2 x3 x4 x5 x6 p q).trans
    (outT_eq_G X H Wr bWr Ur bUr Wu bWu Uu bUu W bW U bU x0 x1 x2 x3 x4 x5 x6 r0 hr0 h0 h1 h2a h2b h2c h3a h3b h4 h5a h5b h6 p q)

variable (m : (ℓ : Loc nD τ sig) → Buf (Elt Ideal) ℓ) (ρ : Dev nD → PrngReg)

/-- The cell of core `c`'s argument arrays as they are at the start. -/
def cellOf (c : Dev nD) : S16384x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem hz : (![0, 0] : Fin 2 → Nat) = fun _ => 0 := funext fun a => by fin_cases a <;> rfl

/-- The windows' index maps, decided over the 32 points: the input, the state and the result move one block of rows
    per point; the five host-written arrays are staged whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every block of rows is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

theorem rows_in (t : Fin cfg0.N) : 512 * t.val + 512 ≤ 16384 := by
  have h := t.isLt
  have hN : cfg0.N = 32 := N_0
  omega

/-! ## The blocks a point stages -/

theorem blk0 (c : Dev nD) (t : Fin cfg0.N) (p : Fin 512) (k : Fin 1024) :
    iblk m c 0 t (ix2 p k) = m ((c : Thread nD τ).loc main_arg0) (ix2 (rowAt (512 * t.val) (rows_in t) p) k) := by
  show V m c main_arg0 (((cfg0.win 0).blk t).view.emb (ix2 p k)) = _
  rw [V_main_arg0]
  refine congrArg _ (funext fun a => Fin.ext ?_)
  obtain ⟨e00, e01, -⟩ := idx_facts t
  match a with
  | ⟨0, _⟩ => show win0_0.index t (0 : Fin 2) * 512 + 1 * p.val = 512 * t.val + p.val; omega
  | ⟨1, _⟩ => show win0_0.index t (1 : Fin 2) * 1024 + 1 * k.val = k.val; omega

theorem blk1 (c : Dev nD) (t : Fin cfg0.N) (p : Fin 512) (k : Fin 1024) :
    iblk m c 1 t (ix2 p k) = m ((c : Thread nD τ).loc main_arg1) (ix2 (rowAt (512 * t.val) (rows_in t) p) k) := by
  show V m c main_arg1 (((cfg0.win 1).blk t).view.emb (ix2 p k)) = _
  rw [V_main_arg1]
  refine congrArg _ (funext fun a => Fin.ext ?_)
  obtain ⟨-, -, e10, e11, -⟩ := idx_facts t
  match a with
  | ⟨0, _⟩ => show win0_1.index t (0 : Fin 2) * 512 + 1 * p.val = 512 * t.val + p.val; omega
  | ⟨1, _⟩ => show win0_1.index t (1 : Fin 2) * 1024 + 1 * k.val = k.val; omega

theorem blk2 (c : Dev nD) (t : Fin cfg0.N) (j : Fin 3072) (k : Fin 1024) : iblk m c 2 t (ix2 j k) = V m c main_v1 (ix2 j k) := by
  show V m c main_v1 (((cfg0.win 2).blk t).view.emb (ix2 j k)) = _
  refine congrArg _ (funext fun a => Fin.ext ?_)
  obtain ⟨-, -, -, -, e0, e1, -⟩ := idx_facts t
  match a with
  | ⟨0, _⟩ => show win0_2.index t (0 : Fin 2) * 3072 + 1 * j.val = j.val; omega
  | ⟨1, _⟩ => show win0_2.index t (1 : Fin 2) * 1024 + 1 * k.val = k.val; omega

theorem blk3 (c : Dev nD) (t : Fin cfg0.N) (j : Fin 2048) (k : Fin 1024) : iblk m c 3 t (ix2 j k) = V m c main_v3 (ix2 j k) := by
  show V m c main_v3 (((cfg0.win 3).blk t).view.emb (ix2 j k)) = _
  refine congrArg _ (funext fun a => Fin.ext ?_)
  obtain ⟨-, -, -, -, -, -, e0, e1, -⟩ := idx_facts t
  match a with
  | ⟨0, _⟩ => show win0_3.index t (0 : Fin 2) * 2048 + 1 * j.val = j.val; omega
  | ⟨1, _⟩ => show win0_3.index t (1 : Fin 2) * 1024 + 1 * k.val = k.val; omega

theorem blk4 (c : Dev nD) (t : Fin cfg0.N) (j : Fin 1024) (k : Fin 1024) : iblk m c 4 t (ix2 j k) = V m c main_v4 (ix2 j k) := by
  show V m c main_v4 (((cfg0.win 4).blk t).view.emb (ix2 j k)) = _
  refine congrArg _ (funext fun a => Fin.ext ?_)
  obtain ⟨-, -, -, -, -, -, -, -, e0, e1, -⟩ := idx_facts t
  match a with
  | ⟨0, _⟩ => show win0_4.index t (0 : Fin 2) * 1024 + 1 * j.val = j.val; omega
  | ⟨1, _⟩ => show win0_4.index t (1 : Fin 2) * 1024 + 1 * k.val = k.val; omega

theorem blk5 (c : Dev nD) (t : Fin cfg0.N) (u : Fin 1) (k : Fin 2048) : iblk m c 5 t (ix2 u k) = V m c main_v8 (ix2 u k) := by
  show V m c main_v8 (((cfg0.win 5).blk t).view.emb (ix2 u k)) = _
  refine congrArg _ (funext fun a => Fin.ext ?_)
  obtain ⟨-, -, -, -, -, -, -, -, -, -, e0, e1, -⟩ := idx_facts t
  match a with
  | ⟨0, _⟩ => show win0_5.index t (0 : Fin 2) * 1 + 1 * u.val = u.val; omega
  | ⟨1, _⟩ => show win0_5.index t (1 : Fin 2) * 2048 + 1 * k.val = k.val; omega

theorem blk6 (c : Dev nD) (t : Fin cfg0.N) (u : Fin 1) (k : Fin 1024) : iblk m c 6 t (ix2 u k) = V m c main_v10 (ix2 u k) := by
  show V m c main_v10 (((cfg0.win 6).blk t).view.emb (ix2 u k)) = _
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * u.val = u.val; omega
  | ⟨1, _⟩ => show win0_6.index t (1 : Fin 2) * 1024 + 1 * k.val = k.val; omega

/-! ## What a point writes back -/

/-- Point `t` writes back block `t` of the cell. -/
theorem flushed_eq (c : Dev nD) (t : Fin cfg0.N) :
    (dats m 0 c).flushed 7 t = ((cfg0.win 7).blk t).view.read (Elt Ideal) (cellOf m c) := by
  show (cfg0.win 7).cut (grid0.coords t) ((dats m 0 c).after 7 t) = _
  rw [after7]
  unfold outTile
  rw [View.canon_unit_zero hz]
  unfold tileOf
  simp only [View.ld_unit_zero (S := S512x1024) hz, View.ld_unit_zero (S := S3072x1024) hz, View.ld_unit_zero (S := S2048x1024) hz,
    View.ld_unit_zero (S := S1024x1024) hz, View.ld_unit_zero (S := S1x2048) hz, View.ld_unit_zero (S := S1x1024) hz]
  funext j
  show k0_pay1 (F := Ideal) (k0_pay5 (iblk m c 0 t) (iblk m c 1 t) (iblk m c 2 t) (iblk m c 3 t) (iblk m c 5 t))
      (k0_pay6 (iblk m c 0 t) (iblk m c 1 t) (iblk m c 2 t) (iblk m c 3 t) (iblk m c 5 t) (iblk m c 4 t) (iblk m c 6 t))
      (k0_pay7 (iblk m c 0 t) (iblk m c 1 t) (iblk m c 2 t) (iblk m c 3 t) (iblk m c 5 t)) j
    = cellOf m c (((cfg0.win 7).blk t).view.emb j)
  refine (tile_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (iblk m c 0 t) (iblk m c 1 t) (iblk m c 2 t) (iblk m c 3 t) (iblk m c 4 t) (iblk m c 5 t) (iblk m c 6 t) (512 * t.val) (rows_in t)
    (blk0 m c t) (blk1 m c t)
    (fun q k => (blk2 m c t _ k).trans (wcat_reset m c q k)) (fun q k => (blk2 m c t _ k).trans (wcat_update m c q k))
    (fun q k => (blk2 m c t _ k).trans (wcat_cand m c q k))
    (fun q k => (blk3 m c t _ k).trans (ucat_reset m c q k)) (fun q k => (blk3 m c t _ k).trans (ucat_update m c q k))
    (fun q k => (blk4 m c t q k).trans (u_entry m c q k))
    (fun q => (blk5 m c t 0 _).trans (bias_reset m c q)) (fun q => (blk5 m c t 0 _).trans (bias_update m c q))
    (fun q => (blk6 m c t 0 q).trans (bias_cand m c q)) j).trans ?_
  refine congrArg (cellOf m c) (funext fun a => Fin.ext ?_)
  obtain ⟨-, -, -, -, -, -, -, -, -, -, -, -, -, -, e0, e1⟩ := idx_facts t
  match a with
  | ⟨0, _⟩ => show 512 * t.val + (j 0).val = win0_7.index t (0 : Fin 2) * 512 + 1 * (j 0).val; omega
  | ⟨1, _⟩ => show (j 1).val = win0_7.index t (1 : Fin 2) * 1024 + 1 * (j 1).val; omega

/-! ## The tiles cover the result -/

theorem mem_blk (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11).slice (win0_7.rect t)).set ↔ _
  rw [View.set_slice_whole, Rect.mem_set_unit]
  exact Iff.rfl

theorem cover (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE RESULT ARRAY after the run is the cell of the argument arrays. -/
theorem final (c : Dev nD) : (dats m 0 c).arrAt 7 cfg0.N = cellOf m c :=
  (dats m 0 c).arrAt_eq_of_cover 7 (cellOf m c) (fun t _ => flushed_eq m c t) cover

/-- The run, read: the result at the cell of the arguments, the arguments unchanged. -/
theorem run : θ_run defs (onTc (τ := τ) (main (F := Ideal))) ⟨m, fun _ => 0, ρ⟩ fun r => ∀ c : Dev nD,
      r.2.mem ((c.tc : Thread nD τ).loc main_v11) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.KernelValue

end
-- ==== Proof.RefIsSpec.lean ====
/-
  The reference program computes the gated recurrent cell of `Spec.lean`.

  The program is a chain of whole-array stages. Read at an entry `(r, q)` there are three kinds of stage that are not
  entrywise: a product `a · Mᵀ` (a transpose, then a contraction of the second axis of `a` with the first of `Mᵀ`), which
  is `∑ k, a (r, k) · M (q, k)`; a bias vector spread first to one row and then over all rows, which is its entry
  `q`; and the scalar constant one spread over the array, which is the single-precision word for one. Every other
  stage acts entry by entry. The logistic function is spelt `1 / (1 + e^(−z))` with both ones that word, which
  is the real number one; the `1` of `1 − update` is kept as the word, as the specification keeps it. The sums are
  grouped as the specification groups them, so beyond these readings nothing is used but unfolding.

  The reset gate enters the candidate state inside the sum over `k` (the state times the gate, then the product with
  `Uᵀ`), so it is read at a general entry `(r, k)`.
-/
import proofs.«145832_j40621800686224_2_alg».proof.Proof.Gen.ReferenceIdeal.Read
import proofs.«145832_j40621800686224_2_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.Gru

/-! ## Indices

The index functions of the program's stages at an entry `(r, q)`, in coordinates. -/

/-- The left operand of a product `a · Mᵀ` is read along row `r` of `a`. -/
theorem lidx_rq (r : Fin 16384) (q : Fin 1024) (k : Fin 1024) : lidx_main_v1 (ix2 r q) k = ix2 r k :=
  funext fun a => Fin.ext (by match a with | ⟨0, _⟩ => rfl | ⟨1, _⟩ => rfl)

/-- The right operand, the transposed matrix, is read along its column `q`. -/
theorem ridx_rq (r : Fin 16384) (q : Fin 1024) (k : Fin 1024) : ridx_main_v1 (ix2 r q) k = ix2 k q :=
  funext fun a => Fin.ext (by match a with | ⟨0, _⟩ => rfl | ⟨1, _⟩ => rfl)

/-- Entry `(k, q)` of the transposed matrix is entry `(q, k)` of the matrix. -/
theorem tidx_kq (k q : Fin 1024) : idx_main_v0 (ix2 k q) = ix2 q k :=
  funext fun a => Fin.ext (by match a with | ⟨0, _⟩ => rfl | ⟨1, _⟩ => rfl)

/-- A bias vector spread over the rows is read at the column. -/
theorem bidx_rq (r : Fin 16384) (q : Fin 1024) : idx_main_v2 (idx_main_v3 (ix2 r q)) = ix1 q :=
  funext fun a => Fin.ext (by match a with | ⟨0, _⟩ => rfl)

/-! ## The three kinds of stage: a product with a transposed matrix, a spread bias, the constant one -/

/-- `a · Mᵀ` at `(r, q)` is row `r` of `a` against row `q` of `M`. -/
theorem dot_read (a : FVec Ideal S16384x1024 .f32) (M : FVec Ideal S1024x1024 .f32) (r : Fin 16384) (q : Fin 1024) :
    val_main_v1 (F := Ideal) a M (ix2 r q) = lin a M r q := by
  rw [val_main_v1_apply]
  unfold lin
  refine Finset.sum_congr rfl fun k _ => ?_
  rw [val_main_v0_apply, lidx_rq, ridx_rq, tidx_kq]
theorem dot_read_v6 (a : FVec Ideal S16384x1024 .f32) (M : FVec Ideal S1024x1024 .f32) (r : Fin 16384) (q : Fin 1024) :
    val_main_v6 (F := Ideal) a M (ix2 r q) = lin a M r q := dot_read a M r q
theorem dot_read_v18 (a : FVec Ideal S16384x1024 .f32) (M : FVec Ideal S1024x1024 .f32) (r : Fin 16384) (q : Fin 1024) :
    val_main_v18 (F := Ideal) a M (ix2 r q) = lin a M r q := dot_read a M r q
theorem dot_read_v23 (a : FVec Ideal S16384x1024 .f32) (M : FVec Ideal S1024x1024 .f32) (r : Fin 16384) (q : Fin 1024) :
    val_main_v23 (F := Ideal) a M (ix2 r q) = lin a M r q := dot_read a M r q
theorem dot_read_v35 (a : FVec Ideal S16384x1024 .f32) (M : FVec Ideal S1024x1024 .f32) (r : Fin 16384) (q : Fin 1024) :
    val_main_v35 (F := Ideal) a M (ix2 r q) = lin a M r q := dot_read a M r q

/-- A bias spread over the rows, at `(r, q)`, is its entry `q`. -/
theorem bias_read (b : FVec Ideal S1024 .f32) (r : Fin 16384) (q : Fin 1024) :
    val_main_v3 (F := Ideal) b (ix2 r q) = b (ix1 q) := by
  rw [val_main_v3_apply, val_main_v2_apply, bidx_rq]
theorem bias_read_v9 (b : FVec Ideal S1024 .f32) (r : Fin 16384) (q : Fin 1024) :
    val_main_v9 (F := Ideal) b (ix2 r q) = b (ix1 q) := bias_read b r q
theorem bias_read_v20 (b : FVec Ideal S1024 .f32) (r : Fin 16384) (q : Fin 1024) :
    val_main_v20 (F := Ideal) b (ix2 r q) = b (ix1 q) := bias_read b r q
theorem bias_read_v26 (b : FVec Ideal S1024 .f32) (r : Fin 16384) (q : Fin 1024) :
    val_main_v26 (F := Ideal) b (ix2 r q) = b (ix1 q) := bias_read b r q
theorem bias_read_v37 (b : FVec Ideal S1024 .f32) (r : Fin 16384) (q : Fin 1024) :
    val_main_v37 (F := Ideal) b (ix2 r q) = b (ix1 q) := bias_read b r q
theorem bias_read_v44 (b : FVec Ideal S1024 .f32) (r : Fin 16384) (q : Fin 1024) :
    val_main_v44 (F := Ideal) b (ix2 r q) = b (ix1 q) := bias_read b r q

/-- The constant array is the single-precision word for one at every entry. -/
theorem one_read (r : Fin 16384) (q : Fin 1024) :
    val_main_v13 (F := Ideal) (ix2 r q) = Ideal.ofBits .f32 0x3F800000#32 := by
  rw [val_main_v13_apply, val_main_cst_apply]; rfl
theorem one_read_v15 (r : Fin 16384) (q : Fin 1024) :
    val_main_v15 (F := Ideal) (ix2 r q) = Ideal.ofBits .f32 0x3F800000#32 := one_read r q
theorem one_read_v30 (r : Fin 16384) (q : Fin 1024) :
    val_main_v30 (F := Ideal) (ix2 r q) = Ideal.ofBits .f32 0x3F800000#32 := one_read r q
theorem one_read_v32 (r : Fin 16384) (q : Fin 1024) :
    val_main_v32 (F := Ideal) (ix2 r q) = Ideal.ofBits .f32 0x3F800000#32 := one_read r q
theorem one_read_v47 (r : Fin 16384) (q : Fin 1024) :
    val_main_v47 (F := Ideal) (ix2 r q) = Ideal.ofBits .f32 0x3F800000#32 := one_read r q

/-- The logistic function as the program spells it, `1 / (1 + e^(−z))` with both ones the single-precision word. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

/-! ## The gates -/

/-- The reset gate before its logistic. -/
theorem reset_pre (x h : FVec Ideal S16384x1024 .f32) (Wr : FVec Ideal S1024x1024 .f32) (bWr : FVec Ideal S1024 .f32) (Ur : FVec Ideal S1024x1024 .f32) (bUr : FVec Ideal S1024 .f32) (r : Fin 16384) (q : Fin 1024) :
    val_main_v10 (F := Ideal) x h Wr bWr Ur bUr (ix2 r q) = gateLin x h Wr Ur bWr bUr r q := by
  rw [val_main_v10_apply, val_main_v7_apply, val_main_v4_apply, dot_read, bias_read, dot_read_v6, bias_read_v9]
  rfl

/-- The reset gate. -/
theorem reset_gate (x h : FVec Ideal S16384x1024 .f32) (Wr : FVec Ideal S1024x1024 .f32) (bWr : FVec Ideal S1024 .f32) (Ur : FVec Ideal S1024x1024 .f32) (bUr : FVec Ideal S1024 .f32) (r : Fin 16384) (q : Fin 1024) :
    val_main_v16 (F := Ideal) x h Wr bWr Ur bUr (ix2 r q) = gate x h Wr Ur bWr bUr r q := by
  rw [val_main_v16_apply, one_read_v15, val_main_v14_apply, one_read, val_main_v12_apply, val_main_v11_apply, reset_pre]
  exact logistic_spelt _

/-- The update gate before its logistic. -/
theorem update_pre (x h : FVec Ideal S16384x1024 .f32) (Wu : FVec Ideal S1024x1024 .f32) (bWu : FVec Ideal S1024 .f32) (Uu : FVec Ideal S1024x1024 .f32) (bUu : FVec Ideal S1024 .f32) (r : Fin 16384) (q : Fin 1024) :
    val_main_v27 (F := Ideal) x h Wu bWu Uu bUu (ix2 r q) = gateLin x h Wu Uu bWu bUu r q := by
  rw [val_main_v27_apply, val_main_v24_apply, val_main_v21_apply, dot_read_v18, bias_read_v20, dot_read_v23, bias_read_v26]
  rfl

/-- The update gate. -/
theorem update_gate (x h : FVec Ideal S16384x1024 .f32) (Wu : FVec Ideal S1024x1024 .f32) (bWu : FVec Ideal S1024 .f32) (Uu : FVec Ideal S1024x1024 .f32) (bUu : FVec Ideal S1024 .f32) (r : Fin 16384) (q : Fin 1024) :
    val_main_v33 (F := Ideal) x h Wu bWu Uu bUu (ix2 r q) = gate x h Wu Uu bWu bUu r q := by
  rw [val_main_v33_apply, one_read_v32, val_main_v31_apply, one_read_v30, val_main_v29_apply, val_main_v28_apply, update_pre]
  exact logistic_spelt _

/-- The product of the gated state with the transposed matrix, at `(r, q)`. -/
theorem val_main_v41_eq_lin (x h : FVec Ideal S16384x1024 .f32) (Wr : FVec Ideal S1024x1024 .f32) (bWr : FVec Ideal S1024 .f32) (Ur : FVec Ideal S1024x1024 .f32) (bUr : FVec Ideal S1024 .f32) (U : FVec Ideal S1024x1024 .f32) (r : Fin 16384) (q : Fin 1024) :
    val_main_v41 (F := Ideal) x h Wr bWr Ur bUr U (ix2 r q) = lin (val_main_v39 (F := Ideal) x h Wr bWr Ur bUr) U r q :=
  dot_read (val_main_v39 (F := Ideal) x h Wr bWr Ur bUr) U r q

/-! ## The candidate state -/

/-- The state times the reset gate, at `(r, k)`: the reset gate enters the candidate inside a sum over `k`. -/
theorem state_reset (x h : FVec Ideal S16384x1024 .f32) (Wr : FVec Ideal S1024x1024 .f32) (bWr : FVec Ideal S1024 .f32) (Ur : FVec Ideal S1024x1024 .f32) (bUr : FVec Ideal S1024 .f32) (r : Fin 16384) (k : Fin 1024) :
    val_main_v39 (F := Ideal) x h Wr bWr Ur bUr (ix2 r k) = h (ix2 r k) * resetArr x h Wr Ur bWr bUr (ix2 r k) := by
  rw [val_main_v39_apply, reset_gate]
  rfl

/-- The candidate state before its tanh. -/
theorem cand_pre (x h : FVec Ideal S16384x1024 .f32) (Wr : FVec Ideal S1024x1024 .f32) (bWr : FVec Ideal S1024 .f32) (Ur : FVec Ideal S1024x1024 .f32) (bUr : FVec Ideal S1024 .f32)
    (W : FVec Ideal S1024x1024 .f32) (bW : FVec Ideal S1024 .f32) (U : FVec Ideal S1024x1024 .f32) (bU : FVec Ideal S1024 .f32) (r : Fin 16384) (q : Fin 1024) :
    val_main_v45 (F := Ideal) x h Wr bWr Ur bUr W bW U bU (ix2 r q)
      = candLin x h (resetArr x h Wr Ur bWr bUr) W U bW bU r q := by
  have e : lin (val_main_v39 (F := Ideal) x h Wr bWr Ur bUr) U r q
      = ∑ k : Fin 1024, (h (ix2 r k) * resetArr x h Wr Ur bWr bUr (ix2 r k)) * U (ix2 q k) :=
    Finset.sum_congr rfl fun k _ => by rw [state_reset]
  rw [val_main_v45_apply, val_main_v42_apply, val_main_v38_apply, dot_read_v35, bias_read_v37, val_main_v41_eq_lin,
    bias_read_v44, e]
  rfl

/-! ## The whole cell -/

/-- The program's last stage is the cell `G` of its fourteen arguments. -/
theorem ref_val_eq (a0 a1 : FVec Ideal S16384x1024 .f32) (a2 : FVec Ideal S1024x1024 .f32) (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32) (a9 : FVec Ideal S1024 .f32)
    (a10 : FVec Ideal S1024x1024 .f32) (a11 : FVec Ideal S1024 .f32) (a12 : FVec Ideal S1024x1024 .f32) (a13 : FVec Ideal S1024 .f32) :
    val_main_v51 (F := Ideal) a0 a1 a2 a3 a4 a5 a6 a7 a8 a9 a10 a11 a12 a13 = Cert.Gru.G a0 a1 a2 a3 a4 a5 a6 a7 a8 a9 a10 a11 a12 a13 := by
  funext i
  obtain ⟨r, q, rfl⟩ : ∃ (r : Fin 16384) (q : Fin 1024), i = ix2 r q := ⟨i 0, i 1, eq_ix2 i⟩
  rw [val_main_v51_apply, val_main_v49_apply, val_main_v50_apply, val_main_v48_apply, val_main_v46_apply, one_read_v47,
    update_gate, cand_pre]
  rfl

/-- The term the program's run leaves in its result, as a function of the fourteen arguments, is the cell `G`. -/
theorem ref_eq (a0 a1 : FVec Ideal S16384x1024 .f32) (a2 : FVec Ideal S1024x1024 .f32) (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32) (a9 : FVec Ideal S1024 .f32)
    (a10 : FVec Ideal S1024x1024 .f32) (a11 : FVec Ideal S1024 .f32) (a12 : FVec Ideal S1024x1024 .f32) (a13 : FVec Ideal S1024 .f32) :
    (addf (F := Ideal) (mulf (F := Ideal) (subf (F := Ideal) (broadcastInDim S16384x1024 ![] bcast_S_S16384x1024 (constant (F := Ideal) S_ .f32 0x3F800000#32)) (Host.divf (F := Ideal) (broadcastInDim S16384x1024 ![] bcast_S_S16384x1024 (constant (F := Ideal) S_ .f32 0x3F800000#32)) (addf (F := Ideal) (broadcastInDim S16384x1024 ![] bcast_S_S16384x1024 (constant (F := Ideal) S_ .f32 0x3F800000#32)) (Host.exp (F := Ideal) (Host.negf (F := Ideal) (addf (F := Ideal) (addf (F := Ideal) (addf (F := Ideal)
        (Host.dotGeneral (F := Ideal) dot_S16384x1024_S1024x1024_S16384x1024_1_0_0_1_n_n none a0 (transpose S1024x1024 [1, 0] a6 transposes_S1024x1024_S1024x1024_1_0))
        (broadcastInDim S16384x1024 ![0, 1] bcast_S1x1024_S16384x1024_0_1 (broadcastInDim S1x1024 ![1] bcast_S1024_S1x1024_1 a7)))
        (Host.dotGeneral (F := Ideal) dot_S16384x1024_S1024x1024_S16384x1024_1_0_0_1_n_n none a1 (transpose S1024x1024 [1, 0] a8 transposes_S1024x1024_S1024x1024_1_0)))
        (broadcastInDim S16384x1024 ![0, 1] bcast_S1x1024_S16384x1024_0_1 (broadcastInDim S1x1024 ![1] bcast_S1024_S1x1024_1 a9)))))))) a1) (mulf (F := Ideal) (Host.divf (F := Ideal) (broadcastInDim S16384x1024 ![] bcast_S_S16384x1024 (constant (F := Ideal) S_ .f32 0x3F800000#32)) (addf (F := Ideal) (broadcastInDim S16384x1024 ![] bcast_S_S16384x1024 (constant (F := Ideal) S_ .f32 0x3F800000#32)) (Host.exp (F := Ideal) (Host.negf (F := Ideal) (addf (F := Ideal) (addf (F := Ideal) (addf (F := Ideal)
        (Host.dotGeneral (F := Ideal) dot_S16384x1024_S1024x1024_S16384x1024_1_0_0_1_n_n none a0 (transpose S1024x1024 [1, 0] a6 transposes_S1024x1024_S1024x1024_1_0))
        (broadcastInDim S16384x1024 ![0, 1] bcast_S1x1024_S16384x1024_0_1 (broadcastInDim S1x1024 ![1] bcast_S1024_S1x1024_1 a7)))
        (Host.dotGeneral (F := Ideal) dot_S16384x1024_S1024x1024_S16384x1024_1_0_0_1_n_n none a1 (transpose S1024x1024 [1, 0] a8 transposes_S1024x1024_S1024x1024_1_0)))
        (broadcastInDim S16384x1024 ![0, 1] bcast_S1x1024_S16384x1024_0_1 (broadcastInDim S1x1024 ![1] bcast_S1024_S1x1024_1 a9))))))) (Host.tanh (F := Ideal) (addf (F := Ideal) (addf (F := Ideal) (addf (F := Ideal)
        (Host.dotGeneral (F := Ideal) dot_S16384x1024_S1024x1024_S16384x1024_1_0_0_1_n_n none a0 (transpose S1024x1024 [1, 0] a10 transposes_S1024x1024_S1024x1024_1_0))
        (broadcastInDim S16384x1024 ![0, 1] bcast_S1x1024_S16384x1024_0_1 (broadcastInDim S1x1024 ![1] bcast_S1024_S1x1024_1 a11)))
        (Host.dotGeneral (F := Ideal) dot_S16384x1024_S1024x1024_S16384x1024_1_0_0_1_n_n none (mulf (F := Ideal) a1 (Host.divf (F := Ideal) (broadcastInDim S16384x1024 ![] bcast_S_S16384x1024 (constant (F := Ideal) S_ .f32 0x3F800000#32)) (addf (F := Ideal) (broadcastInDim S16384x1024 ![] bcast_S_S16384x1024 (constant (F := Ideal) S_ .f32 0x3F800000#32)) (Host.exp (F := Ideal) (Host.negf (F := Ideal) (addf (F := Ideal) (addf (F := Ideal) (addf (F := Ideal)
        (Host.dotGeneral (F := Ideal) dot_S16384x1024_S1024x1024_S16384x1024_1_0_0_1_n_n none a0 (transpose S1024x1024 [1, 0] a2 transposes_S1024x1024_S1024x1024_1_0))
        (broadcastInDim S16384x1024 ![0, 1] bcast_S1x1024_S16384x1024_0_1 (broadcastInDim S1x1024 ![1] bcast_S1024_S1x1024_1 a3)))
        (Host.dotGeneral (F := Ideal) dot_S16384x1024_S1024x1024_S16384x1024_1_0_0_1_n_n none a1 (transpose S1024x1024 [1, 0] a4 transposes_S1024x1024_S1024x1024_1_0)))
        (broadcastInDim S16384x1024 ![0, 1] bcast_S1x1024_S16384x1024_0_1 (broadcastInDim S1x1024 ![1] bcast_S1024_S1x1024_1 a5)))))))) (transpose S1024x1024 [1, 0] a12 transposes_S1024x1024_S1024x1024_1_0)))
        (broadcastInDim S16384x1024 ![0, 1] bcast_S1x1024_S16384x1024_0_1 (broadcastInDim S1x1024 ![1] bcast_S1024_S1x1024_1 a13))))) : FVec Ideal S16384x1024 .f32)
      = Cert.Gru.G a0 a1 a2 a3 a4 a5 a6 a7 a8 a9 a10 a11 a12 a13 :=
  (val_main_v51_eq (F := Ideal) a0 a1 a2 a3 a4 a5 a6 a7 a8 a9 a10 a11 a12 a13).trans (ref_val_eq a0 a1 a2 a3 a4 a5 a6 a7 a8 a9 a10 a11 a12 a13)

end Cert.ReferenceIdeal.RefValue

end
-- ==== Proof.lean ====
/-
  A gated recurrent cell, fused: the kernel program against its plain reference.

  Both programs take an input batch x and a state h of 16384 rows, six weight matrices stored one output per row, and
  six bias vectors, and return the new state
      r = σ(x·Wrᵀ + b_Wr + h·Urᵀ + b_Ur),   u = σ(x·Wuᵀ + b_Wu + h·Uuᵀ + b_Uu),
      c = tanh(x·Wᵀ + b_W + (h ∘ r)·Uᵀ + b_U),   out = (1 − u) ∘ h + u ∘ c.
  The reference computes this with one matrix product per weight matrix. The kernel program first stacks the three
  input-side matrices and the two state-side gate matrices by rows, adds each pair of biases, and then, 512 rows at a
  time, takes two wide products against the stacked matrices, cuts the gates' and the candidate's columns out of them,
  and one more product for the candidate.

  At the exact values the two results are equal entry by entry, for ANY extended-real inputs (the finiteness
  precondition is never opened): a product against a stack of matrices, cut at a band, is the product against the matrix
  of that band; the logistic function the kernel names is by definition the quotient the reference spells out; a change of
  float format is the identity; and the two programs differ otherwise only in how they group the sum of four terms
  (product, bias, product, bias) under each activation, which commutativity and associativity of addition on the
  extended reals settle. Both meet at one function of the fourteen arrays, `Cert.Gru.G`.

  The frames: each kernel program runs to the end, faults nowhere and leaves its arguments as they were because its host
  operations write none of them, its launch reads two of them through windows it never writes back, and its body stays
  inside the staging buffers it is handed; the reference is host operations only. The idealization rewrote nothing, so
  there is nothing to preserve.
-/
import proofs.«145832_j40621800686224_2_alg».proof.Defs
import proofs.«145832_j40621800686224_2_alg».proof.Proof.Gen.Kernel
import proofs.«145832_j40621800686224_2_alg».proof.Proof.Gen.KernelIdeal
import proofs.«145832_j40621800686224_2_alg».proof.Proof.Gen.ReferenceIdeal
import proofs.«145832_j40621800686224_2_alg».proof.Proof.Gen.Pre_finite_inputs
import proofs.«145832_j40621800686224_2_alg».proof.Proof.Gen.ReferenceIdeal.Run
import proofs.«145832_j40621800686224_2_alg».proof.Proof.Gen.ReferenceIdeal.Read
import proofs.«145832_j40621800686224_2_alg».proof.Proof.KernelFrame
import proofs.«145832_j40621800686224_2_alg».proof.Proof.KernelIdealFrame
import proofs.«145832_j40621800686224_2_alg».proof.Proof.KernelValue
import proofs.«145832_j40621800686224_2_alg».proof.Proof.RefIsSpec
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Frame.frame m ρ

/-- So does its reading at the exact values. -/
theorem frame_kernelIdeal : Cert.frame_KernelIdeal := fun m ρ _ => Cert.KernelIdeal.Frame.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values the kernel program's result and the reference's are both the cell of the arguments. -/
theorem algebraic : Cert.algebraic_KernelIdeal_ReferenceIdeal := by
  intro m ρ m' ρ' _ hagree
  refine ⟨fun c => Cert.KernelIdeal.KernelValue.cellOf m c, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.ref_eq]
  obtain ⟨e0, e1, e2, e3, e4, e5, e6, e7, e8, e9, e10, e11, e12, e13⟩ := hagree c
  rw [e0, e1, e2, e3, e4, e5, e6, e7, e8, e9, e10, e11, e12, e13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
